-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S2x625000 : Shape := ⟨2, ![2, 625000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S100000x128 .f32) (main_arg1 : FVec F S4x128x128 .f32) (main_arg2 : FVec F S4x128 .f32) (main_arg3 : IVec S2x625000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Kernel.lean ====
abbrev S100000x128 : Shape := ⟨2, ![100000, 128]⟩
abbrev S4x128x128 : Shape := ⟨3, ![4, 128, 128]⟩
abbrev S4x128 : Shape := ⟨2, ![4, 128]⟩
abbrev S2x625000 : Shape := ⟨2, ![2, 625000]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S100000x1 : Shape := ⟨2, ![100000, 1]⟩
abbrev S1x128 : Shape := ⟨2, ![1, 128]⟩
abbrev S128x128 : Shape := ⟨2, ![128, 128]⟩
abbrev S1x128x128 : Shape := ⟨3, ![1, 128, 128]⟩
abbrev S5000x128 : Shape := ⟨2, ![5000, 128]⟩
abbrev S5000x1 : Shape := ⟨2, ![5000, 1]⟩
abbrev S725000x128 : Shape := ⟨2, ![725000, 128]⟩
abbrev S128 : Shape := ⟨1, ![128]⟩

abbrev nBuf : Space → Nat
  | .hbm => 107
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S4x128x128, .f32⟩
  | .hbm, ⟨2, _⟩ => ⟨S4x128, .f32⟩
  | .hbm, ⟨3, _⟩ => ⟨S2x625000, .i32⟩
  | .hbm, ⟨4, _⟩ => ⟨S100000, .i32⟩
  | .hbm, ⟨5, _⟩ => ⟨S1x625000, .i32⟩
  | .hbm, ⟨6, _⟩ => ⟨S625000, .i32⟩
  | .hbm, ⟨7, _⟩ => ⟨S725000, .i32⟩
  | .hbm, ⟨8, _⟩ => ⟨S1x625000, .i32⟩
  | .hbm, ⟨9, _⟩ => ⟨S625000, .i32⟩
  | .hbm, ⟨10, _⟩ => ⟨S725000, .i32⟩
  | .hbm, ⟨11, _⟩ => ⟨S_, .f32⟩
  | .hbm, ⟨12, _⟩ => ⟨S725000, .f32⟩
  | .hbm, ⟨13, _⟩ => ⟨S_, .f32⟩
  | .hbm, ⟨14, _⟩ => ⟨S100000, .f32⟩
  | .hbm, ⟨15, _⟩ => ⟨S725000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S100000x128, .f32⟩
  | .hbm, ⟨33, _⟩ => ⟨S_, .i32⟩
  | .hbm, ⟨34, _⟩ => ⟨S725000, .i32⟩
  | .hbm, ⟨35, _⟩ => ⟨S725000, .i1⟩
  | .hbm, ⟨36, _⟩ => ⟨S_, .i32⟩
  | .hbm, ⟨37, _⟩ => ⟨S725000, .i32⟩
  | .hbm, ⟨38, _⟩ => ⟨S725000, .i32⟩
  | .hbm, ⟨39, _⟩ => ⟨S725000, .i32⟩
  | .hbm, ⟨40, _⟩ => ⟨S725000x1, .i32⟩
  | .hbm, ⟨41, _⟩ => ⟨S725000x128, .f32⟩
  | .hbm, ⟨42, _⟩ => ⟨S_, .f32⟩
  | .hbm, ⟨43, _⟩ => ⟨S100000x128, .f32⟩
  | .hbm, ⟨44, _⟩ => ⟨S725000x1, .i32⟩
  | .hbm, ⟨45, _⟩ => ⟨S100000x128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S1x128x128, .f32⟩
  | .hbm, ⟨50, _⟩ => ⟨S128x128, .f32⟩
  | .hbm, ⟨51, _⟩ => ⟨S100000x128, .f32⟩
  | .hbm, ⟨52, _⟩ => ⟨S_, .i32⟩
  | .hbm, ⟨53, _⟩ => ⟨S725000, .i32⟩
  | .hbm, ⟨54, _⟩ => ⟨S725000, .i1⟩
  | .hbm, ⟨55, _⟩ => ⟨S_, .i32⟩
  | .hbm, ⟨56, _⟩ => ⟨S725000, .i32⟩
  | .hbm, ⟨57, _⟩ => ⟨S725000, .i32⟩
  | .hbm, ⟨58, _⟩ => ⟨S725000, .i32⟩
  | .hbm, ⟨59, _⟩ => ⟨S725000x1, .i32⟩
  | .hbm, ⟨60, _⟩ => ⟨S725000x128, .f32⟩
  | .hbm, ⟨61, _⟩ => ⟨S_, .f32⟩
  | .hbm, ⟨62, _⟩ => ⟨S100000x128, .f32⟩
  | .hbm, ⟨63, _⟩ => ⟨S725000x1, .i32⟩
  | .hbm, ⟨64, _⟩ => ⟨S100000x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S_, .i32⟩
  | .hbm, ⟨72, _⟩ => ⟨S725000, .i32⟩
  | .hbm, ⟨73, _⟩ => ⟨S725000, .i1⟩
  | .hbm, ⟨74, _⟩ => ⟨S_, .i32⟩
  | .hbm, ⟨75, _⟩ => ⟨S725000, .i32⟩
  | .hbm, ⟨76, _⟩ => ⟨S725000, .i32⟩
  | .hbm, ⟨77, _⟩ => ⟨S725000, .i32⟩
  | .hbm, ⟨78, _⟩ => ⟨S725000x1, .i32⟩
  | .hbm, ⟨79, _⟩ => ⟨S725000x128, .f32⟩
  | .hbm, ⟨80, _⟩ => ⟨S_, .f32⟩
  | .hbm, ⟨81, _⟩ => ⟨S100000x128, .f32⟩
  | .hbm, ⟨82, _⟩ => ⟨S725000x1, .i32⟩
  | .hbm, ⟨83, _⟩ => ⟨S100000x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S1x128x128, .f32⟩
  | .hbm, ⟨88, _⟩ => ⟨S128x128, .f32⟩
  | .hbm, ⟨89, _⟩ => ⟨S100000x128, .f32⟩
  | .hbm, ⟨90, _⟩ => ⟨S_, .i32⟩
  | .hbm, ⟨91, _⟩ => ⟨S725000, .i32⟩
  | .hbm, ⟨92, _⟩ => ⟨S725000, .i1⟩
  | .hbm, ⟨93, _⟩ => ⟨S_, .i32⟩
  | .hbm, ⟨94, _⟩ => ⟨S725000, .i32⟩
  | .hbm, ⟨95, _⟩ => ⟨S725000, .i32⟩
  | .hbm, ⟨96, _⟩ => ⟨S725000, .i32⟩
  | .hbm, ⟨97, _⟩ => ⟨S725000x1, .i32⟩
  | .hbm, ⟨98, _⟩ => ⟨S725000x128, .f32⟩
  | .hbm, ⟨99, _⟩ => ⟨S_, .f32⟩
  | .hbm, ⟨100, _⟩ => ⟨S100000x128, .f32⟩
  | .hbm, ⟨101, _⟩ => ⟨S725000x1, .i32⟩
  | .hbm, ⟨102, _⟩ => ⟨S100000x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S1x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S128x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  shapeCasts_S100000_S100000x1 : S100000.ShapeCasts S100000x1
  bcast_S_S1x128 : S_.BroadcastsInDim S1x128 (![] : Fin 0 → Fin S1x128.rank)
  bcast_S_S128x128 : S_.BroadcastsInDim S128x128 (![] : Fin 0 → Fin S128x128.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  slices_S4x128x128_S1x128x128_1_0_0 : S4x128x128.Slices ![1, 0, 0] S1x128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S725000x1_S725000_n_0_0_1_wf : ScatterDims.WF S100000 S725000x1 S725000 [] [0] [0] 1
  dot_S5000x128_S128x128_S5000x128_1_0_0_1_n_n_wf : DotDims.WF S5000x128 S128x128 S5000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S2x625000 : Shape := ⟨2, ![2, 625000]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S1x128x128 : Shape := ⟨3, ![1, 128, 128]⟩
abbrev S128x128 : Shape := ⟨2, ![128, 128]⟩
abbrev S725000x128 : Shape := ⟨2, ![725000, 128]⟩
abbrev S1x128 : Shape := ⟨2, ![1, 128]⟩
abbrev S128 : Shape := ⟨1, ![128]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S2x625000, .i32⟩
  | 4 => ⟨S100000, .i32⟩
  | 5 => ⟨S1x625000, .i32⟩
  | 6 => ⟨S625000, .i32⟩
  | 7 => ⟨S725000, .i32⟩
  | 8 => ⟨S1x625000, .i32⟩
  | 9 => ⟨S625000, .i32⟩
  | 10 => ⟨S725000, .i32⟩
  | 11 => ⟨S_, .f32⟩
  | 12 => ⟨S725000, .f32⟩
  | 13 => ⟨S_, .f32⟩
  | 14 => ⟨S100000, .f32⟩
  | 15 => ⟨S725000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S725000, .i32⟩
  | 27 => ⟨S725000, .i1⟩
  | 28 => ⟨S_, .i32⟩
  | 29 => ⟨S725000, .i32⟩
  | 30 => ⟨S725000, .i32⟩
  | 31 => ⟨S725000, .i32⟩
  | 32 => ⟨S725000x1, .i32⟩
  | 33 => ⟨S725000, .f32⟩
  | 34 => ⟨S_, .i32⟩
  | 35 => ⟨S725000, .i32⟩
  | 36 => ⟨S725000, .i1⟩
  | 37 => ⟨S_, .i32⟩
  | 38 => ⟨S725000, .i32⟩
  | 39 => ⟨S725000, .i32⟩
  | 40 => ⟨S725000, .i32⟩
  | 41 => ⟨S725000x1, .i32⟩
  | 42 => ⟨S725000, .f32⟩
  | 43 => ⟨S725000, .f32⟩
  | 44 => ⟨S725000x1, .f32⟩
  | 45 => ⟨S1x128x128, .f32⟩
  | 46 => ⟨S128x128, .f32⟩
  | 47 => ⟨S100000x128, .f32⟩
  | 48 => ⟨S_, .i32⟩
  | 49 => ⟨S725000, .i32⟩
  | 50 => ⟨S725000, .i1⟩
  | 51 => ⟨S_, .i32⟩
  | 52 => ⟨S725000, .i32⟩
  | 53 => ⟨S725000, .i32⟩
  | 54 => ⟨S725000, .i32⟩
  | 55 => ⟨S725000x1, .i32⟩
  | 56 => ⟨S725000x128, .f32⟩
  | 57 => ⟨S725000x128, .f32⟩
  | 58 => ⟨S725000x128, .f32⟩
  | 59 => ⟨S_, .f32⟩
  | 60 => ⟨S100000x128, .f32⟩
  | 61 => ⟨S725000x1, .i32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S_, .i32⟩
  | 75 => ⟨S725000, .i32⟩
  | 76 => ⟨S725000, .i1⟩
  | 77 => ⟨S_, .i32⟩
  | 78 => ⟨S725000, .i32⟩
  | 79 => ⟨S725000, .i32⟩
  | 80 => ⟨S725000, .i32⟩
  | 81 => ⟨S725000x1, .i32⟩
  | 82 => ⟨S725000x128, .f32⟩
  | 83 => ⟨S725000x128, .f32⟩
  | 84 => ⟨S725000x128, .f32⟩
  | 85 => ⟨S_, .f32⟩
  | 86 => ⟨S100000x128, .f32⟩
  | 87 => ⟨S725000x1, .i32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S_, .i32⟩
  | 101 => ⟨S725000, .i32⟩
  | 102 => ⟨S725000, .i1⟩
  | 103 => ⟨S_, .i32⟩
  | 104 => ⟨S725000, .i32⟩
  | 105 => ⟨S725000, .i32⟩
  | 106 => ⟨S725000, .i32⟩
  | 107 => ⟨S725000x1, .i32⟩
  | 108 => ⟨S725000x128, .f32⟩
  | 109 => ⟨S725000x128, .f32⟩
  | 110 => ⟨S725000x128, .f32⟩
  | 111 => ⟨S_, .f32⟩
  | 112 => ⟨S100000x128, .f32⟩
  | 113 => ⟨S725000x1, .i32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S_, .i32⟩
  | 127 => ⟨S725000, .i32⟩
  | _ => ⟨S100000x128, .f32⟩

abbrev hbmTy0_1 (i : Nat) : BufTy := match i % 128 with
  | 0 => ⟨S725000, .i1⟩
  | 1 => ⟨S_, .i32⟩
  | 2 => ⟨S725000, .i32⟩
  | 3 => ⟨S725000, .i32⟩
  | 4 => ⟨S725000, .i32⟩
  | 5 => ⟨S725000x1, .i32⟩
  | 6 => ⟨S725000x128, .f32⟩
  | 7 => ⟨S725000x128, .f32⟩
  | 8 => ⟨S725000x128, .f32⟩
  | 9 => ⟨S_, .f32⟩
  | 10 => ⟨S100000x128, .f32⟩
  | 11 => ⟨S725000x1, .i32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call2_cst : Ref sig .tc := ⟨.hbm, 94, rfl⟩
abbrev main_call2_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_12 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call3_cst : Ref sig .tc := ⟨.hbm, 120, rfl⟩
abbrev main_call3_v0 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_15 : Ref sig .tc := ⟨.hbm, 126, rfl⟩
abbrev main_v97 : Ref sig .tc := ⟨.hbm, 127, rfl⟩
abbrev main_v98 : Ref sig .tc := ⟨.hbm, 128, rfl⟩
abbrev main_c_16 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_17 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_call4_cst : Ref sig .tc := ⟨.hbm, 146, rfl⟩
abbrev main_call4_v0 : Ref sig .tc := ⟨.hbm, 147, rfl⟩
abbrev main_v114 : Ref sig .tc := ⟨.hbm, 148, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  slices_S4x128x128_S1x128x128_0_0_0 : S4x128x128.Slices ![0, 0, 0] S1x128x128
  shapeCasts_S1x128x128_S128x128 : S1x128x128.ShapeCasts S128x128
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  dot_S100000x128_S128x128_S100000x128_1_0_0_1_n_n_wf : DotDims.WF S100000x128 S128x128 S100000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

class Facts : Prop extends Facts₀ where

variable [Facts]
-- ==== Proof.KernelRun.lean ====
/-
  The kernel program's run with its RESULT named: every weakly fair execution of @main terminates, nothing faulting,
  with the result buffer at what the last region's write-backs leave in it and the four arguments as launched.

  @main is five kernel regions among stretches of host operations; the buffer contents at each boundary are a fold
  from the launch memory, and the last thread state holds every buffer at the last boundary's contents — the result
  buffer among them.
-/
import proofs.«133015_j5600637354462_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.KernelIdeal.KValue

end
-- ==== Proof.KernelHost.lean ====
/-
  The kernel program's host side: the arrays its host operations prepare for the five kernel regions.

  Before the first region: the edge lists with the self-loops appended, the degree normalisation dinv as a column, the
  first weight matrix.  Between two regions: the previous region's output rows gathered at the edges' source nodes and
  scatter-added to their destination nodes (the sparse message pass), the layer's bias as a row, the next weight matrix.
  Every other buffer a stretch leaves as it found it.
-/
import proofs.«133015_j5600637354462_1_alg».proof.Proof.Gen.KernelIdeal.Launch
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

def srcList (x3 : IVec S2x625000 32) : IVec S725000 32 :=
  concatenate S725000 0 [⟨S625000, (shapeCast _ (extractStridedSlice S1x625000 ![0, 0] x3 slices_S2x625000_S1x625000_0_0) shapeCasts_S1x625000_S625000)⟩, ⟨S100000, (iotaInDim S100000 32 0)⟩] concatenates_S625000_S100000_S725000_d0
def dstList (x3 : IVec S2x625000 32) : IVec S725000 32 :=
  concatenate S725000 0 [⟨S625000, (shapeCast _ (extractStridedSlice S1x625000 ![1, 0] x3 slices_S2x625000_S1x625000_1_0) shapeCasts_S1x625000_S625000)⟩, ⟨S100000, (iotaInDim S100000 32 0)⟩] concatenates_S625000_S100000_S725000_d0

/-- An index list as a column of start indices. -/
def rawCol (v : IVec S725000 32) : IVec S725000x1 32 :=
  broadcastInDim S725000x1 ![0] bcast_S725000_S725000x1_0 v

/-- An index list as a column, a negative word `w` first replaced by `w + 100000`. -/
def normCol (v : IVec S725000 32) : IVec S725000x1 32 :=
  broadcastInDim S725000x1 ![0] bcast_S725000_S725000x1_0 (select (cmpi .slt v (broadcastInDim S725000 ![] bcast_S_S725000 (constantI S_ 32 0#32))) (addi v (broadcastInDim S725000 ![] bcast_S_S725000 (constantI S_ 32 100000#32))) v)

def degree (dstV : IVec S725000 32) : FVec F S100000 .f32 :=
  Host.scatterAdd scatter_S100000_S725000x1_S725000_n_0_0_1 (broadcastInDim S100000 ![] bcast_S_S100000 (constant S_ .f32 0x00000000#32)) (rawCol dstV) (broadcastInDim S725000 ![] bcast_S_S725000 (constant S_ .f32 0x3F800000#32))

def dinv (dstV : IVec S725000 32) : FVec F S100000 .f32 :=
  select (cmpf (F := F) .ogt (degree dstV) (broadcastInDim S100000 ![] bcast_S_S100000 (constant S_ .f32 0x00000000#32))) (Host.rsqrt (degree dstV)) (broadcastInDim S100000 ![] bcast_S_S100000 (id (constant S_ .f32 0x00000000#32)))

/-- dinv as the [100000, 1] column the regions read. -/
def dinvCol (dstV : IVec S725000 32) : FVec F S100000x1 .f32 :=
  shapeCast S100000x1 (dinv (F := F) dstV) shapeCasts_S100000_S100000x1

def weight0 (x1 : FVec F S4x128x128 .f32) : FVec F S128x128 .f32 :=
  shapeCast _ (extractStridedSlice S1x128x128 ![0, 0, 0] x1 slices_S4x128x128_S1x128x128_0_0_0) shapeCasts_S1x128x128_S128x128
def weight1 (x1 : FVec F S4x128x128 .f32) : FVec F S128x128 .f32 :=
  shapeCast _ (extractStridedSlice S1x128x128 ![1, 0, 0] x1 slices_S4x128x128_S1x128x128_1_0_0) shapeCasts_S1x128x128_S128x128
def weight2 (x1 : FVec F S4x128x128 .f32) : FVec F S128x128 .f32 :=
  shapeCast _ (extractStridedSlice S1x128x128 ![2, 0, 0] x1 slices_S4x128x128_S1x128x128_2_0_0) shapeCasts_S1x128x128_S128x128
def weight3 (x1 : FVec F S4x128x128 .f32) : FVec F S128x128 .f32 :=
  shapeCast _ (extractStridedSlice S1x128x128 ![3, 0, 0] x1 slices_S4x128x128_S1x128x128_3_0_0) shapeCasts_S1x128x128_S128x128
def biasVec0 (x2 : FVec F S4x128 .f32) : FVec F S128 .f32 :=
  shapeCast _ (extractStridedSlice S1x128 ![0, 0] x2 slices_S4x128_S1x128_0_0) shapeCasts_S1x128_S128
def biasVec1 (x2 : FVec F S4x128 .f32) : FVec F S128 .f32 :=
  shapeCast _ (extractStridedSlice S1x128 ![1, 0] x2 slices_S4x128_S1x128_1_0) shapeCasts_S1x128_S128
def biasVec2 (x2 : FVec F S4x128 .f32) : FVec F S128 .f32 :=
  shapeCast _ (extractStridedSlice S1x128 ![2, 0] x2 slices_S4x128_S1x128_2_0) shapeCasts_S1x128_S128
def biasVec3 (x2 : FVec F S4x128 .f32) : FVec F S128 .f32 :=
  shapeCast _ (extractStridedSlice S1x128 ![3, 0] x2 slices_S4x128_S1x128_3_0) shapeCasts_S1x128_S128
/-- A bias vector as the [1, 128] row a region reads. -/
def rowOf (bv : FVec F S128 .f32) : FVec F S1x128 .f32 := shapeCast S1x128 bv shapeCasts_S128_S1x128
def biasRow0 (x2 : FVec F S4x128 .f32) : FVec F S1x128 .f32 := rowOf (biasVec0 x2)
def biasRow1 (x2 : FVec F S4x128 .f32) : FVec F S1x128 .f32 := rowOf (biasVec1 x2)
def biasRow2 (x2 : FVec F S4x128 .f32) : FVec F S1x128 .f32 := rowOf (biasVec2 x2)
def biasRow3 (x2 : FVec F S4x128 .f32) : FVec F S1x128 .f32 := rowOf (biasVec3 x2)

/-- The sparse message pass: rows gathered at the edges' source nodes, scatter-added to their destination nodes. -/
def aggr (srcV dstV : IVec S725000 32) (Fm : FVec F S100000x128 .f32) : FVec F S100000x128 .f32 :=
  Host.scatterAdd scatter_S100000x128_S725000x1_S725000x128_1_0_0_1 (broadcastInDim S100000x128 ![] bcast_S_S100000x128 (constant S_ .f32 0x00000000#32)) (rawCol dstV) (Host.gather gather_S100000x128_S725000x1_S725000x128_1_0_n_n_0_1_1128 Fm (normCol srcV))

/-! ## What the stretches leave -/

/-! ### The stretch before region 1 -/

set_option maxHeartbeats 4000000 in
theorem stretch1_agg (Wv : Valuation τ sig (Elt F)) :
    StableHlo.after hostOps1 Wv (Proc.devRef .tc main_v30)
      = aggr (F := F) (Wv (Proc.devRef .tc main_v3)) (Wv (Proc.devRef .tc main_v6)) (Wv (Proc.devRef .tc main_v20)) := by
  after_results_simp <;> rfl
theorem stretch1_bias (Wv : Valuation τ sig (Elt F)) :
    StableHlo.after hostOps1 Wv (Proc.devRef .tc main_v33) = biasRow0 (F := F) (Wv (Proc.devRef .tc main_arg2)) := by
  after_results; rfl
theorem stretch1_weight (Wv : Valuation τ sig (Elt F)) :
    StableHlo.after hostOps1 Wv (Proc.devRef .tc main_v35) = weight1 (F := F) (Wv (Proc.devRef .tc main_arg1)) := by
  after_results; rfl
theorem stretch1_keep_main_v3 (Wv : Valuation τ sig (Elt F)) :
    StableHlo.after hostOps1 Wv (Proc.devRef .tc main_v3) = Wv (Proc.devRef .tc main_v3) := by
  after_results
theorem stretch1_keep_main_v6 (Wv : Valuation τ sig (Elt F)) :
    StableHlo.after hostOps1 Wv (Proc.devRef .tc main_v6) = Wv (Proc.devRef .tc main_v6) := by
  after_results
theorem stretch1_keep_main_v15 (Wv : Valuation τ sig (Elt F)) :
    StableHlo.after hostOps1 Wv (Proc.devRef .tc main_v15) = Wv (Proc.devRef .tc main_v15) := by
  after_results
theorem stretch1_keep_main_arg1 (Wv : Valuation τ sig (Elt F)) :
    StableHlo.after hostOps1 Wv (Proc.devRef .tc main_arg1) = Wv (Proc.devRef .tc main_arg1) := by
  after_results
theorem stretch1_keep_main_arg2 (Wv : Valuation τ sig (Elt F)) :
    StableHlo.after hostOps1 Wv (Proc.devRef .tc main_arg2) = Wv (Proc.devRef .tc main_arg2) := by
  after_results

/-! ### The stretch before region 2 -/

set_option maxHeartbeats 4000000 in
theorem stretch2_agg (Wv : Valuation τ sig (Elt F)) :
    StableHlo.after hostOps2 Wv (Proc.devRef .tc main_v46)
      = aggr (F := F) (Wv (Proc.devRef .tc main_v3)) (Wv (Proc.devRef .tc main_v6)) (Wv (Proc.devRef .tc main_v36)) := by
  after_results_simp <;> rfl
theorem stretch2_bias (Wv : Valuation τ sig (Elt F)) :
    StableHlo.after hostOps2 Wv (Proc.devRef .tc main_v49) = biasRow1 (F := F) (Wv (Proc.devRef .tc main_arg2)) := by
  after_results; rfl
theorem stretch2_weight (Wv : Valuation τ sig (Elt F)) :
    StableHlo.after hostOps2 Wv (Proc.devRef .tc main_v51) = weight2 (F := F) (Wv (Proc.devRef .tc main_arg1)) := by
  after_results; rfl
theorem stretch2_keep_main_v3 (Wv : Valuation τ sig (Elt F)) :
    StableHlo.after hostOps2 Wv (Proc.devRef .tc main_v3) = Wv (Proc.devRef .tc main_v3) := by
  after_results
theorem stretch2_keep_main_v6 (Wv : Valuation τ sig (Elt F)) :
    StableHlo.after hostOps2 Wv (Proc.devRef .tc main_v6) = Wv (Proc.devRef .tc main_v6) := by
  after_results
theorem stretch2_keep_main_v15 (Wv : Valuation τ sig (Elt F)) :
    StableHlo.after hostOps2 Wv (Proc.devRef .tc main_v15) = Wv (Proc.devRef .tc main_v15) := by
  after_results
theorem stretch2_keep_main_arg1 (Wv : Valuation τ sig (Elt F)) :
    StableHlo.after hostOps2 Wv (Proc.devRef .tc main_arg1) = Wv (Proc.devRef .tc main_arg1) := by
  after_results
theorem stretch2_keep_main_arg2 (Wv : Valuation τ sig (Elt F)) :
    StableHlo.after hostOps2 Wv (Proc.devRef .tc main_arg2) = Wv (Proc.devRef .tc main_arg2) := by
  after_results

/-! ### The stretch before region 3 -/

set_option maxHeartbeats 4000000 in
theorem stretch3_agg (Wv : Valuation τ sig (Elt F)) :
    StableHlo.after hostOps3 Wv (Proc.devRef .tc main_v62)
      = aggr (F := F) (Wv (Proc.devRef .tc main_v3)) (Wv (Proc.devRef .tc main_v6)) (Wv (Proc.devRef .tc main_v52)) := by
  after_results_simp <;> rfl
theorem stretch3_bias (Wv : Valuation τ sig (Elt F)) :
    StableHlo.after hostOps3 Wv (Proc.devRef .tc main_v65) = biasRow2 (F := F) (Wv (Proc.devRef .tc main_arg2)) := by
  after_results; rfl
theorem stretch3_weight (Wv : Valuation τ sig (Elt F)) :
    StableHlo.after hostOps3 Wv (Proc.devRef .tc main_v67) = weight3 (F := F) (Wv (Proc.devRef .tc main_arg1)) := by
  after_results; rfl
theorem stretch3_keep_main_v3 (Wv : Valuation τ sig (Elt F)) :
    StableHlo.after hostOps3 Wv (Proc.devRef .tc main_v3) = Wv (Proc.devRef .tc main_v3) := by
  after_results
theorem stretch3_keep_main_v6 (Wv : Valuation τ sig (Elt F)) :
    StableHlo.after hostOps3 Wv (Proc.devRef .tc main_v6) = Wv (Proc.devRef .tc main_v6) := by
  after_results
theorem stretch3_keep_main_v15 (Wv : Valuation τ sig (Elt F)) :
    StableHlo.after hostOps3 Wv (Proc.devRef .tc main_v15) = Wv (Proc.devRef .tc main_v15) := by
  after_results
theorem stretch3_keep_main_arg1 (Wv : Valuation τ sig (Elt F)) :
    StableHlo.after hostOps3 Wv (Proc.devRef .tc main_arg1) = Wv (Proc.devRef .tc main_arg1) := by
  after_results
theorem stretch3_keep_main_arg2 (Wv : Valuation τ sig (Elt F)) :
    StableHlo.after hostOps3 Wv (Proc.devRef .tc main_arg2) = Wv (Proc.devRef .tc main_arg2) := by
  after_results

/-! ### The stretch before region 4 -/

set_option maxHeartbeats 4000000 in
theorem stretch4_agg (Wv : Valuation τ sig (Elt F)) :
    StableHlo.after hostOps4 Wv (Proc.devRef .tc main_v78)
      = aggr (F := F) (Wv (Proc.devRef .tc main_v3)) (Wv (Proc.devRef .tc main_v6)) (Wv (Proc.devRef .tc main_v68)) := by
  after_results_simp <;> rfl
theorem stretch4_bias (Wv : Valuation τ sig (Elt F)) :
    StableHlo.after hostOps4 Wv (Proc.devRef .tc main_v81) = biasRow3 (F := F) (Wv (Proc.devRef .tc main_arg2)) := by
  after_results; rfl
theorem stretch4_keep_main_v3 (Wv : Valuation τ sig (Elt F)) :
    StableHlo.after hostOps4 Wv (Proc.devRef .tc main_v3) = Wv (Proc.devRef .tc main_v3) := by
  after_results
theorem stretch4_keep_main_v6 (Wv : Valuation τ sig (Elt F)) :
    StableHlo.after hostOps4 Wv (Proc.devRef .tc main_v6) = Wv (Proc.devRef .tc main_v6) := by
  after_results
theorem stretch4_keep_main_v15 (Wv : Valuation τ sig (Elt F)) :
    StableHlo.after hostOps4 Wv (Proc.devRef .tc main_v15) = Wv (Proc.devRef .tc main_v15) := by
  after_results
theorem stretch4_keep_main_arg1 (Wv : Valuation τ sig (Elt F)) :
    StableHlo.after hostOps4 Wv (Proc.devRef .tc main_arg1) = Wv (Proc.devRef .tc main_arg1) := by
  after_results
theorem stretch4_keep_main_arg2 (Wv : Valuation τ sig (Elt F)) :
    StableHlo.after hostOps4 Wv (Proc.devRef .tc main_arg2) = Wv (Proc.devRef .tc main_arg2) := by
  after_results

/-! ### The three stretches before region 0, from the launch memory -/

section first
variable (W : Valuation τ sig (Elt F))

theorem first_src : StableHlo.after hostOps0_2 (StableHlo.after hostOps0_1 (StableHlo.after hostOps0 W)) (Proc.devRef .tc main_v3)
    = srcList (W (Proc.devRef .tc main_arg3)) := by
  after_results; rfl
theorem first_dst : StableHlo.after hostOps0_2 (StableHlo.after hostOps0_1 (StableHlo.after hostOps0 W)) (Proc.devRef .tc main_v6)
    = dstList (W (Proc.devRef .tc main_arg3)) := by
  after_results; rfl
theorem first_weight : StableHlo.after hostOps0_2 (StableHlo.after hostOps0_1 (StableHlo.after hostOps0 W)) (Proc.devRef .tc main_v19)
    = weight0 (F := F) (W (Proc.devRef .tc main_arg1)) := by
  after_results; rfl
set_option maxHeartbeats 4000000 in
theorem first_dinv : StableHlo.after hostOps0_2 (StableHlo.after hostOps0_1 (StableHlo.after hostOps0 W)) (Proc.devRef .tc main_v15)
    = dinvCol (F := F) (dstList (W (Proc.devRef .tc main_arg3))) := by
  after_results_simp <;> rfl
theorem first_keep_main_arg0 : StableHlo.after hostOps0_2 (StableHlo.after hostOps0_1 (StableHlo.after hostOps0 W)) (Proc.devRef .tc main_arg0)
    = W (Proc.devRef .tc main_arg0) := by
  after_results
theorem first_keep_main_arg1 : StableHlo.after hostOps0_2 (StableHlo.after hostOps0_1 (StableHlo.after hostOps0 W)) (Proc.devRef .tc main_arg1)
    = W (Proc.devRef .tc main_arg1) := by
  after_results
theorem first_keep_main_arg2 : StableHlo.after hostOps0_2 (StableHlo.after hostOps0_1 (StableHlo.after hostOps0 W)) (Proc.devRef .tc main_arg2)
    = W (Proc.devRef .tc main_arg2) := by
  after_results

end first

end Cert.KernelIdeal.KValue

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelPay.lean ====
/-
  The three kernel bodies' stored values, read at one entry of a block of 5000 node rows, at the exact values.

  First layer: the block's rows times the weight matrix, each row then scaled by that node's dinv.
  Last step: relu(dinv · agg + b): the aggregated row scaled by the node's dinv, the bias row added, the maximum with zero.
  Middle layers: the last step's value put through the first layer's product and scaling with the next weights
  (rounding to bf16 on the way into the product is the identity at the exact values).
-/
import proofs.«133015_j5600637354462_1_alg».proof.Proof.Gen.KernelIdeal.Skeleton
import proofs.«133015_j5600637354462_1_alg».proof.Proof.LibPlainMatmul
import proofs.«133015_j5600637354462_1_alg».proof.Proof.LibColumnBroadcast
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

/-- The first layer's block: (x W)(r, q) · d(r). -/
theorem pay0_apply (x : Vec Ideal S5000x128 .f32) (w : Vec Ideal S128x128 .f32) (d : Vec Ideal S5000x1 .f32)
    (r : Fin 5000) (q : Fin 128) :
    k0_pay1 (F := Ideal) x w d (ix2 r q) = (∑ c : Fin 128, x (ix2 r c) * w (ix2 c q)) * d (ix2 r (0 : Fin 1)) := by
  unfold k0_pay1
  rw [shapeCast_self, shapeCast_self]
  show (matmul (F := Ideal) dot_S5000x128_S128x128_S5000x128_1_0_0_1_n_n none _ _ _ (ix2 r q) : EReal) * (broadcastTo S5000x128 d _ (ix2 r q) : EReal) = _
  refine congrArg₂ (· * ·) ?_ ?_
  · exact matmul_plain_zero_apply (m := 5000) (k := 128) (n := 128) none x w r q
  · exact Cert.LibColumnBroadcast.broadcastTo_a1_ab_apply d _ r q

/-- The last step's block: max(d(r) · x(r, q) + b(q), 0). -/
theorem pay4_apply (x : Vec Ideal S5000x128 .f32) (d : Vec Ideal S5000x1 .f32) (b : Vec Ideal S1x128 .f32)
    (r : Fin 5000) (q : Fin 128) :
    k4_pay1 (F := Ideal) x d b (ix2 r q)
      = max (d (ix2 r (0 : Fin 1)) * x (ix2 r q) + b (ix2 (0 : Fin 1) q)) (Ideal.ofBits .f32 0x00000000#32) := by
  unfold k4_pay1
  rw [shapeCast_self, shapeCast_self, shapeCast_self]
  show max ((broadcastTo S5000x128 d _ (ix2 r q) : EReal) * (x (ix2 r q) : EReal) + (broadcastTo S5000x128 b _ (ix2 r q) : EReal)) _ = _
  rw [Cert.LibColumnBroadcast.broadcastTo_a1_ab_apply d _ r q, broadcastTo_1b_ab_apply b _ r q]
  rfl

/-- A middle layer's block is the first layer's product and scaling applied to the last step's value. -/
theorem pay1_eq (x : Vec Ideal S5000x128 .f32) (d : Vec Ideal S5000x1 .f32) (b : Vec Ideal S1x128 .f32)
    (w : Vec Ideal S128x128 .f32) (d' : Vec Ideal S5000x1 .f32) :
    k1_pay1 (F := Ideal) x d b w d' = k0_pay1 (F := Ideal) (k4_pay1 (F := Ideal) x d b) w d' := rfl
theorem pay2_eq (x : Vec Ideal S5000x128 .f32) (d : Vec Ideal S5000x1 .f32) (b : Vec Ideal S1x128 .f32)
    (w : Vec Ideal S128x128 .f32) (d' : Vec Ideal S5000x1 .f32) :
    k2_pay1 (F := Ideal) x d b w d' = k0_pay1 (F := Ideal) (k4_pay1 (F := Ideal) x d b) w d' := rfl
theorem pay3_eq (x : Vec Ideal S5000x128 .f32) (d : Vec Ideal S5000x1 .f32) (b : Vec Ideal S1x128 .f32)
    (w : Vec Ideal S128x128 .f32) (d' : Vec Ideal S5000x1 .f32) :
    k3_pay1 (F := Ideal) x d b w d' = k0_pay1 (F := Ideal) (k4_pay1 (F := Ideal) x d b) w d' := rfl

end Cert.KernelIdeal.KValue

end
-- ==== Proof.KernelBlockMath.lean ====
/-
  The kernel bodies as functions of WHOLE arrays: what a grid point's block of 5000 rows holds is the restriction, to
  that block's rows, of one function of the full node-feature array, the dinv column, the bias row and the weights.
-/
import proofs.«133015_j5600637354462_1_alg».proof.Proof.KernelPay

noncomputable section

namespace Cert.KernelIdeal.KValue

open Cert.KernelIdeal Cert.KernelIdeal.Gen Idealize.ShloMosaic Idealize.ShloMosaic.ValueIdx

/-- The first layer's step on whole arrays: (X W)(p, q) · dinv(p). -/
def firstArr (X : FVec Ideal S100000x128 .f32) (Dc : FVec Ideal S100000x1 .f32) (Wt : FVec Ideal S128x128 .f32) :
    FVec Ideal S100000x128 .f32 :=
  fun i => (∑ c : Fin 128, X (ix2 (n0 := 100000) (n1 := 128) (i 0) c) * Wt (ix2 (n0 := 128) (n1 := 128) c (i 1)))
    * Dc (ix2 (n0 := 100000) (n1 := 1) (i 0) (0 : Fin 1))

/-- The closing step on whole arrays: max(dinv(p) · A(p, q) + b(q), 0). -/
def lastArr (A : FVec Ideal S100000x128 .f32) (Dc : FVec Ideal S100000x1 .f32) (B : FVec Ideal S1x128 .f32) :
    FVec Ideal S100000x128 .f32 :=
  fun i => max (Dc (ix2 (n0 := 100000) (n1 := 1) (i 0) (0 : Fin 1)) * A i + B (ix2 (n0 := 1) (n1 := 128) (0 : Fin 1) (i 1)))
    (Ideal.ofBits .f32 0x00000000#32)

theorem first_entry (x : Vec Ideal S5000x128 .f32) (w : Vec Ideal S128x128 .f32) (d : Vec Ideal S5000x1 .f32)
    (X : FVec Ideal S100000x128 .f32) (Dc : FVec Ideal S100000x1 .f32) (Wt : FVec Ideal S128x128 .f32)
    (r : Fin 5000) (q : Fin 128) (p : Fin 100000)
    (hx : ∀ c : Fin 128, x (ix2 r c) = X (ix2 p c)) (hw : ∀ a b : Fin 128, w (ix2 a b) = Wt (ix2 a b))
    (hd : d (ix2 r (0 : Fin 1)) = Dc (ix2 p (0 : Fin 1))) :
    k0_pay1 (F := Ideal) x w d (ix2 r q) = firstArr X Dc Wt (ix2 p q) := by
  rw [pay0_apply]
  show _ = (∑ c : Fin 128, X (ix2 p c) * Wt (ix2 c q)) * Dc (ix2 p (0 : Fin 1))
  rw [hd]
  refine congrArg (· * _) (Finset.sum_congr rfl fun c _ => ?_)
  rw [hx c, hw c q]

theorem last_entry (x : Vec Ideal S5000x128 .f32) (d : Vec Ideal S5000x1 .f32) (b : Vec Ideal S1x128 .f32)
    (A : FVec Ideal S100000x128 .f32) (Dc : FVec Ideal S100000x1 .f32) (B : FVec Ideal S1x128 .f32)
    (r : Fin 5000) (q : Fin 128) (p : Fin 100000)
    (hx : x (ix2 r q) = A (ix2 p q)) (hd : d (ix2 r (0 : Fin 1)) = Dc (ix2 p (0 : Fin 1)))
    (hb : b (ix2 (0 : Fin 1) q) = B (ix2 (0 : Fin 1) q)) :
    k4_pay1 (F := Ideal) x d b (ix2 r q) = lastArr A Dc B (ix2 p q) := by
  rw [pay4_apply, hx, hd, hb]
  rfl

end Cert.KernelIdeal.KValue

end
-- ==== Proof.GcnAlgebra.lean ====
/-
  The algebra that joins the two programs' graph-convolution layers, on the extended reals.

  One layer sends node features X to  relu(Â · (X W) + b),  Â = D^{-1/2} (A + I) D^{-1/2}  the normalised adjacency.
  Written edge by edge, the entry at node p and feature q sums, over the edges k that END at p, the transformed
  feature (X W)(src k, q) weighted by dinv(src k) · dinv(dst k).  One program scales each edge's message by the
  whole weight dinv(src k) · dinv(dst k) before summing; the other scales every node's row by dinv once before the
  edges are read, sums the messages unweighted, and scales the sum at p by dinv(p) afterwards.  Since every edge
  in the sum ends at p, the second factor is the same number dinv(p) for all of them and comes out of the sum:
  multiplication by a NONNEGATIVE REAL distributes over any finite sum of extended reals (also over one that holds
  infinities of both signs), which is the one law used; commutativity and associativity of the product do the rest.
-/
import Idealize.ShloMosaic.Lib.ValueIdx

noncomputable section

open scoped BigOperators

namespace Cert.Gcn

/-- A nonnegative real factor distributes over a finite sum of extended reals. -/
theorem coe_nonneg_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

variable {N E D : ℕ}

/-- A layer with every edge's message weighted by dinv(src) · dinv(dst) before the sum over the edges ending at p. -/
def edgeWeighted (dv : Fin N → EReal) (gs gd : Fin E → Fin N) (dstI : Fin E → Int) (z : EReal)
    (X : Fin N → Fin D → EReal) (W : Fin D → Fin D → EReal) (b : Fin D → EReal) : Fin N → Fin D → EReal :=
  fun p q => max ((0 + ∑ k ∈ Finset.univ.filter (fun k : Fin E => dstI k = (p.val : Int)),
      (∑ c : Fin D, X (gs k) c * W c q) * (dv (gs k) * dv (gd k))) + b q) z

/-- A layer with every node's transformed row scaled by dinv first, the messages summed unweighted, and the sum at p
    scaled by dinv(p). -/
def nodeScaled (dv : Fin N → EReal) (gs : Fin E → Fin N) (dstI : Fin E → Int) (z : EReal)
    (X : Fin N → Fin D → EReal) (W : Fin D → Fin D → EReal) (b : Fin D → EReal) : Fin N → Fin D → EReal :=
  fun p q => max (dv p * (0 + ∑ k ∈ Finset.univ.filter (fun k : Fin E => dstI k = (p.val : Int)),
      (∑ c : Fin D, X (gs k) c * W c q) * dv (gs k)) + b q) z

/-- The two layers are one function of the node features: dinv is a nonnegative real at every node, and an edge
    that ends at p has p as its (in-range) destination node. -/
theorem nodeScaled_eq_edgeWeighted (dv : Fin N → EReal) (gs gd : Fin E → Fin N) (dstI : Fin E → Int) (z : EReal)
    (hdv : ∀ p, ∃ r : ℝ, 0 ≤ r ∧ dv p = (r : EReal))
    (hgd : ∀ k p, dstI k = ((p : Fin N).val : Int) → gd k = p)
    (X : Fin N → Fin D → EReal) (W : Fin D → Fin D → EReal) (b : Fin D → EReal) :
    nodeScaled dv gs dstI z X W b = edgeWeighted dv gs gd dstI z X W b := by
  funext p q
  unfold nodeScaled edgeWeighted
  obtain ⟨r, hr, hp⟩ := hdv p
  rw [zero_add, zero_add, hp, coe_nonneg_mul_sum _ r hr]
  congr 2
  refine Finset.sum_congr rfl fun k hk => ?_
  rw [hgd k p (Finset.mem_filter.mp hk).2, hp, mul_comm, mul_assoc]

end Cert.Gcn

end
-- ==== Proof.LibScatterRows.lean ====
/-
  A general lemma: the host's accumulating float `stablehlo.scatter` of ROWS, read at an index as a sum.

  What `jax.ops.segment_sum(upd, idx, N)` lowers to: a scatter with an `add` body whose scatter indices are the
  integer vector `idx : [R]` laid out as a column `[R, 1]` (index vector on axis 1), the operand's leading axis
  inserted, scatter-dims-to-operand-dims `[0]`.  Update row `k` lands on operand row `p` exactly when the
  index word `idx[k, 0]`, read as a SIGNED integer and not clamped, is `p`; a row whose word names no operand
  row is dropped.  So at the extended reals the result at row `p` is the operand there plus the sum of the update
  rows that land on `p`: for a flat update `[R]` into `[N]`, and for rows of `C` features `[R, C]` into
  `[N, C]`, feature by feature.
-/
import Idealize.ShloMosaic.PureOps.Ideal
import Idealize.ShloMosaic.Lib.ValueIdx

noncomputable section

namespace Idealize.ShloMosaic.ScatterRows

open Idealize.ShloMosaic Idealize.ShloMosaic.ValueIdx

/-! ## A flat update `[R]` into `[N]` -/

/-- The dimension numbers of a segment sum of a flat `[R]` update into `[N]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section flat
variable {N R w : Nat} (wf : ScatterDims.WF ⟨1, ![N]⟩ ⟨2, ![R, 1]⟩ ⟨1, ![R]⟩ [] [0] [0] 1)
  (idx : IVec ⟨2, ![R, 1]⟩ w)

/-- On the operand's one axis the landing coordinate of update `k` is its index word read signed. -/
theorem flat_coord (k : Fin R) (a : Fin 1) :
    (flatDims N R wf).start (ix1 k) idx a + ((flatDims N R wf).window (ix1 k) a : Int)
      = (idx (ix2 k (0 : Fin 1))).toInt := by
  obtain rfl : a = 0 := Subsingleton.elim _ _
  have hw : (flatDims N R wf).window (ix1 k) 0 = 0 := by
    unfold ScatterDims.window
    rw [dif_neg (by simp [ScatterDims.sKept, Shape.kept])]
  rw [hw]
  unfold ScatterDims.start
  rw [dif_pos (show (0 : Fin 1) ∈ (flatDims N R wf).scatterDimsToOperandDims from List.mem_singleton.mpr rfl)]
  have hsi : (flatDims N R wf).siIdx (ix1 k) ⟨List.idxOf (0 : Fin 1) (flatDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- Update `k` lands on operand row `p` exactly when its index word, read signed, is `p`. -/
theorem flat_lands_iff (k : Fin R) (p : Fin N) :
    (flatDims N R wf).resultIdx? (ix1 k) idx = some (ix1 p) ↔ (idx (ix2 k (0 : Fin 1))).toInt = (p.val : Int) := by
  unfold ScatterDims.resultIdx?
  constructor
  · intro h
    split at h
    · have h0 := congrFun (Option.some.inj h) (0 : Fin 1)
      have h1 : ((flatDims N R wf).start (ix1 k) idx 0 + ((flatDims N R wf).window (ix1 k) 0 : Int)).toNat = p.val :=
        congrArg Fin.val h0
      rename_i hall
      have h2 := (hall 0).1
      rw [flat_coord] at h1 h2
      omega
    · cases h
  · intro hv
    have hall : ∀ a : Fin 1, 0 ≤ (flatDims N R wf).start (ix1 k) idx a + ((flatDims N R wf).window (ix1 k) a : Int)
        ∧ (flatDims N R wf).start (ix1 k) idx a + ((flatDims N R wf).window (ix1 k) a : Int)
          < ((⟨1, ![N]⟩ : Shape).size a : Int) := by
      intro a
      rw [flat_coord, hv]
      obtain rfl : a = 0 := Subsingleton.elim _ _
      have : (⟨1, ![N]⟩ : Shape).size 0 = N := rfl
      rw [this]
      have := p.isLt
      omega
    rw [dif_pos hall]
    congr 1
    funext a
    obtain rfl : a = 0 := Subsingleton.elim _ _
    refine Fin.ext ?_
    show ((flatDims N R wf).start (ix1 k) idx 0 + ((flatDims N R wf).window (ix1 k) 0 : Int)).toNat = p.val
    rw [flat_coord, hv]
    simp

/-- THE FLAT SCATTER-ADD READ AT ROW `p`: the operand there plus the sum of the updates landing on `p`. -/
theorem scatterAdd_flat_apply (x : (⟨1, ![N]⟩ : Shape).Idx → EReal) (upd : (⟨1, ![R]⟩ : Shape).Idx → EReal)
    (p : Fin N) :
    Ideal.hostScatterAdd (flatDims N R wf) x idx upd (ix1 p)
      = x (ix1 p) + ∑ k ∈ Finset.univ.filter (fun k : Fin R => (idx (ix2 k (0 : Fin 1))).toInt = (p.val : Int)),
          upd (ix1 k) := by
  unfold Ideal.hostScatterAdd
  congr 1
  rw [Finset.sum_filter, Finset.sum_filter]
  let e : (⟨1, ![R]⟩ : Shape).Idx ≃ Fin R :=
    { toFun := fun j => j 0, invFun := ix1, left_inv := fun j => (eq_ix1 j).symm, right_inv := fun _ => rfl }
  refine Fintype.sum_equiv e _ _ (fun j => ?_)
  obtain ⟨k, rfl⟩ : ∃ k : Fin R, j = ix1 k := ⟨j 0, eq_ix1 j⟩
  exact if_congr (flat_lands_iff wf idx k p) rfl rfl

end flat

/-! ## Rows of `C` features `[R, C]` into `[N, C]` -/

/-- The dimension numbers of a segment sum of `[R, C]` rows into `[N, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows
variable {N R C w : Nat} (wf : ScatterDims.WF ⟨2, ![N, C]⟩ ⟨2, ![R, 1]⟩ ⟨2, ![R, C]⟩ [1] [0] [0] 1)
  (idx : IVec ⟨2, ![R, 1]⟩ w)

/-- On the node axis the landing coordinate of update `(k, f)` is row `k`'s index word read signed. -/
theorem row_coord0 (k : Fin R) (f : Fin C) :
    (rowDims N R C wf).start (ix2 k f) idx 0 + ((rowDims N R C wf).window (ix2 k f) 0 : Int)
      = (idx (ix2 k (0 : Fin 1))).toInt := by
  have hw : (rowDims N R C wf).window (ix2 k f) 0 = 0 := by
    unfold ScatterDims.window
    rw [dif_neg (by simp [ScatterDims.sKept, Shape.kept])]
  rw [hw]
  unfold ScatterDims.start
  rw [dif_pos (show (0 : Fin 2) ∈ (rowDims N R C wf).scatterDimsToOperandDims from List.mem_singleton.mpr rfl)]
  have hsi : (rowDims N R C wf).siIdx (ix2 k f) ⟨List.idxOf (0 : Fin 2) (rowDims N R C wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- On the feature axis the landing coordinate of update `(k, f)` is `f`. -/
theorem row_coord1 (k : Fin R) (f : Fin C) :
    (rowDims N R C wf).start (ix2 k f) idx 1 + ((rowDims N R C wf).window (ix2 k f) 1 : Int) = (f.val : Int) := by
  have hs : (rowDims N R C wf).start (ix2 k f) idx 1 = 0 := by
    unfold ScatterDims.start
    rw [dif_neg (by simp)]
  have hw : (rowDims N R C wf).window (ix2 k f) 1 = f.val := by
    unfold ScatterDims.window
    rw [dif_pos (by simp [ScatterDims.sKept, Shape.kept])]
    rfl
  rw [hs, hw]
  simp

/-- Update `(k, f)` lands on `(p, q)` exactly when row `k`'s index word, read signed, is `p`, and `f = q`. -/
theorem row_lands_iff (k : Fin R) (f : Fin C) (p : Fin N) (q : Fin C) :
    (rowDims N R C wf).resultIdx? (ix2 k f) idx = some (ix2 p q)
      ↔ (idx (ix2 k (0 : Fin 1))).toInt = (p.val : Int) ∧ f = q := by
  unfold ScatterDims.resultIdx?
  constructor
  · intro h
    split at h
    · rename_i hall
      have e := Option.some.inj h
      have h0 : ((rowDims N R C wf).start (ix2 k f) idx 0 + ((rowDims N R C wf).window (ix2 k f) 0 : Int)).toNat = p.val :=
        congrArg Fin.val (congrFun e 0)
      have h1 : ((rowDims N R C wf).start (ix2 k f) idx 1 + ((rowDims N R C wf).window (ix2 k f) 1 : Int)).toNat = q.val :=
        congrArg Fin.val (congrFun e 1)
      have h2 := (hall 0).1
      rw [row_coord0] at h0 h2
      rw [row_coord1] at h1
      exact ⟨by omega, Fin.ext (by omega)⟩
    · cases h
  · rintro ⟨hv, rfl⟩
    have hall : ∀ a : Fin 2, 0 ≤ (rowDims N R C wf).start (ix2 k f) idx a + ((rowDims N R C wf).window (ix2 k f) a : Int)
        ∧ (rowDims N R C wf).start (ix2 k f) idx a + ((rowDims N R C wf).window (ix2 k f) a : Int)
          < ((⟨2, ![N, C]⟩ : Shape).size a : Int) := by
      refine Fin.forall_fin_two.mpr ⟨?_, ?_⟩
      · rw [row_coord0, hv]
        have := p.isLt
        refine ⟨by omega, ?_⟩
        show (p.val : Int) < (N : Int)
        omega
      · rw [row_coord1]
        have := f.isLt
        refine ⟨by omega, ?_⟩
        show (f.val : Int) < (C : Int)
        omega
    rw [dif_pos hall]
    congr 1
    funext a
    refine Fin.ext ?_
    match a with
    | ⟨0, _⟩ =>
      show ((rowDims N R C wf).start (ix2 k f) idx 0 + ((rowDims N R C wf).window (ix2 k f) 0 : Int)).toNat = p.val
      rw [row_coord0, hv]; simp
    | ⟨1, _⟩ =>
      show ((rowDims N R C wf).start (ix2 k f) idx 1 + ((rowDims N R C wf).window (ix2 k f) 1 : Int)).toNat = f.val
      rw [row_coord1]; simp

/-- THE ROW SCATTER-ADD READ AT `(p, q)`: the operand there plus the sum, over the update rows landing on `p`,
    of their feature `q`. -/
theorem scatterAdd_rows_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ k ∈ Finset.univ.filter (fun k : Fin R => (idx (ix2 k (0 : Fin 1))).toInt = (p.val : Int)),
          upd (ix2 k q) := by
  unfold Ideal.hostScatterAdd
  congr 1
  rw [Finset.sum_filter, sum_idx2, Finset.sum_filter]
  refine Finset.sum_congr rfl fun k _ => ?_
  by_cases hk : (idx (ix2 k (0 : Fin 1))).toInt = (p.val : Int)
  · rw [if_pos hk]
    rw [Finset.sum_eq_single q]
    · rw [if_pos ((row_lands_iff wf idx k q p q).mpr ⟨hk, rfl⟩)]
    · intro b _ hb
      rw [if_neg (fun h => hb ((row_lands_iff wf idx k b p q).mp h).2)]
    · intro h; exact absurd (Finset.mem_univ q) h
  · rw [if_neg hk]
    refine Finset.sum_eq_zero fun b _ => ?_
    rw [if_neg (fun h => hk ((row_lands_iff wf idx k b p q).mp h).1)]

end rows

end Idealize.ShloMosaic.ScatterRows

end
-- ==== Proof.LibGatherRows2.lean ====
/-
  A general lemma: `stablehlo.gather` of whole ROWS of a matrix at a column of start indices, read at an index.

  What `x[idx]` of a matrix `x : [N, C]` at an integer vector `idx : [R]` lowers to: a gather whose result
  `[R, C]` has one offset axis (the features), the operand's row axis collapsed, start index map `[0]`, slice
  sizes `[1, C]` and the index vector on axis 1 of the start indices laid out as `[R, 1]`.  Result element
  `(t, f)` is `x` at row `idx[t, 0]` — read as a signed integer and clamped into `[0, N − 1]` — and feature `f`.
  It is the matrix twin of the flat gather read at an index, and is proved the same way.
-/
import Idealize.ShloMosaic.Lib.ValueIdx

noncomputable section

namespace Idealize.ShloMosaic.GatherRows2

open Idealize.ShloMosaic Idealize.ShloMosaic.ValueIdx

variable {α : Type}

/-- The dimension numbers of `x[idx]` for an operand `[N, C]`, start indices `[R, 1]` and result `[R, C]`. -/
abbrev matDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, f)`: the operand at row `idx[t, 0]`, read signed and clamped into
    `[0, N − 1]`, and feature `f`. -/
theorem gather_mat_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (f : Fin C) :
    Host.gather (matDims N R C wf) x idx (ix2 t f)
      = x (ix2 ⟨min (idx (ix2 t (0 : Fin 1))).toInt.toNat (N - 1), by omega⟩ f) := by
  unfold Host.gather
  congr 1
  funext a
  refine Fin.ext ?_
  match a with
  | ⟨0, _⟩ =>
    show (matDims N R C wf).start (ix2 t f) idx 0 + (matDims N R C wf).batchCoord (ix2 t f) 0
      + (matDims N R C wf).offCoord (ix2 t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N R C wf).startIndexMap from List.mem_singleton.mpr rfl)]
    have hsi : (matDims N R C wf).siIdx (ix2 t f) ⟨List.idxOf (0 : Fin 2) (matDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (matDims N R C wf).start (ix2 t f) idx 1 + (matDims N R C wf).batchCoord (ix2 t f) 1
      + (matDims N R C wf).offCoord (ix2 t f) 1 = f.val
    rw [GatherDims.batchCoord_eq_zero _ _ _ List.not_mem_nil]
    have hs : (matDims N R C wf).start (ix2 t f) idx 1 = 0 := by
      unfold GatherDims.start
      rw [dif_neg (by simp)]
    have ho : (matDims N R C wf).offCoord (ix2 t f) 1 = f.val := by
      unfold GatherDims.offCoord
      rw [dif_pos ((GatherDims.mem_sKept _ _).mpr ⟨by simp, List.not_mem_nil⟩)]
      rfl
    rw [hs, ho]
    simp

end Idealize.ShloMosaic.GatherRows2

end
-- ==== Proof.KernelLayerApply.lean ====
/-
  The kernel program's layer on whole arrays, read at one entry.

  One layer of the kernel program is three steps: the first-layer step (X W, each row scaled by its node's dinv), the
  sparse message pass (gather at the source nodes, scatter-add to the destination nodes) and the closing step
  (the sum at p scaled by dinv(p), the bias added, the maximum with zero).  At node p and feature q that is the
  node-scaled sum of GcnAlgebra over the edges whose destination word, read signed, is p.
-/
import proofs.«133015_j5600637354462_1_alg».proof.Proof.KernelHost
import proofs.«133015_j5600637354462_1_alg».proof.Proof.KernelBlockMath
import proofs.«133015_j5600637354462_1_alg».proof.Proof.GcnAlgebra
import proofs.«133015_j5600637354462_1_alg».proof.Proof.LibScatterRows
import proofs.«133015_j5600637354462_1_alg».proof.Proof.LibGatherRows2
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- One layer of the kernel program on whole arrays. -/
def kerLayer (Dc : FVec Ideal S100000x1 .f32) (srcV dstV : IVec S725000 32) (X : FVec Ideal S100000x128 .f32)
    (Wt : FVec Ideal S128x128 .f32) (B : FVec Ideal S1x128 .f32) : FVec Ideal S100000x128 .f32 :=
  lastArr (aggr (F := Ideal) srcV dstV (firstArr X Dc Wt)) Dc B

/-- The node a column's k-th start index names, read signed and clamped into [0, 99999]. -/
def nodeOf (col : IVec S725000x1 32) (k : Fin 725000) : Fin 100000 :=
  ⟨min (col (ix2 k (0 : Fin 1))).toInt.toNat (100000 - 1), by omega⟩

theorem zero_splat_at (j : S100000x128.Idx) :
    broadcastInDim S100000x128 ![] bcast_S_S100000x128 (constant (F := Ideal) S_ .f32 0x00000000#32) j = 0 :=
  (broadcastInDim_apply _ bcast_S_S100000x128 _ j ix0 (fun a => a.elim0)).trans Ideal.ofBits_zero_f32

theorem scatter_rows_at (x : FVec Ideal S100000x128 .f32) (idx : IVec S725000x1 32) (upd : FVec Ideal S725000x128 .f32)
    (p : Fin 100000) (q : Fin 128) :
    Host.scatterAdd scatter_S100000x128_S725000x1_S725000x128_1_0_0_1 x idx upd (ix2 p q)
      = x (ix2 p q) + ∑ k ∈ Finset.univ.filter (fun k : Fin 725000 => (idx (ix2 k (0 : Fin 1))).toInt = (p.val : Int)),
          upd (ix2 k q) :=
  ScatterRows.scatterAdd_rows_apply (N := 100000) (R := 725000) (C := 128)
    scatter_S100000x128_S725000x1_S725000x128_1_0_0_1_wf idx x upd p q

theorem gather_mat_at (x : FVec Ideal S100000x128 .f32) (idx : IVec S725000x1 32) (k : Fin 725000) (q : Fin 128) :
    Host.gather gather_S100000x128_S725000x1_S725000x128_1_0_n_n_0_1_1128 x idx (ix2 k q) = x (ix2 (nodeOf idx k) q) :=
  GatherRows2.gather_mat_apply (N := 100000) (R := 725000) (C := 128) (by omega)
    gather_S100000x128_S725000x1_S725000x128_1_0_n_n_0_1_1128_wf x idx k q

/-- THE KERNEL PROGRAM'S LAYER AT (p, q). -/
theorem kerLayer_apply (Dc : FVec Ideal S100000x1 .f32) (srcV dstV : IVec S725000 32) (X : FVec Ideal S100000x128 .f32)
    (Wt : FVec Ideal S128x128 .f32) (B : FVec Ideal S1x128 .f32) (p : Fin 100000) (q : Fin 128) :
    kerLayer Dc srcV dstV X Wt B (ix2 p q)
      = Cert.Gcn.nodeScaled (fun p => Dc (ix2 p (0 : Fin 1))) (nodeOf (normCol srcV))
          (fun k => (rawCol dstV (ix2 k (0 : Fin 1))).toInt) (Ideal.ofBits .f32 0x00000000#32)
          (fun p c => X (ix2 p c)) (fun c q => Wt (ix2 c q)) (fun q => B (ix2 (0 : Fin 1) q)) p q := by
  unfold kerLayer Cert.Gcn.nodeScaled
  show max (Dc (ix2 p (0 : Fin 1)) * aggr (F := Ideal) srcV dstV (firstArr X Dc Wt) (ix2 p q) + B (ix2 (0 : Fin 1) q)) _ = _
  unfold aggr
  rw [scatter_rows_at, zero_splat_at]
  refine congrArg₂ max (congrArg₂ (· + ·) (congrArg₂ (· * ·) rfl (congrArg₂ (· + ·) rfl (Finset.sum_congr rfl fun k _ => ?_))) rfl) rfl
  rw [gather_mat_at]
  rfl

end Cert.KernelIdeal.KValue

end
-- ==== Proof.KernelBlocks0.lean ====
/-
  Region 0 of the kernel program, from blocks to the whole array: its output array ends holding the first layer's step of the node features, the dinv column and the first weight matrix.

  Grid point t works on rows 5000 t … 5000 t + 4999: it reads those rows of the feature array and of the dinv column,
  the whole bias row and the whole weight matrix, and writes those rows of the output.  The twenty blocks tile the
  100000 rows, so the array after the region is that one function of the arrays the region found.
-/
import proofs.«133015_j5600637354462_1_alg».proof.Proof.Gen.KernelIdeal.Frame
import proofs.«133015_j5600637354462_1_alg».proof.Proof.KernelBlockMath

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the feature, dinv and output windows sit at block row t, the bias row and the
    weights at their one block. -/
theorem idx_facts0 : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every block row is some point's. -/
theorem idx_onto0 : ∀ q0 : Fin 20, ∃ t : Fin cfg0.N, win0_4.index t = ![q0.val, 0] :=
  (by decide +kernel : ∀ q0 : Fin 20, ∃ t : Fin grid0.N, win0_4.index t = ![q0.val, 0])

/-- WHAT POINT t WRITES BACK is block t of the region's whole-array function. -/
theorem flushed0_eq (c : Dev nD) (t : Fin cfg0.N) :
    (dat0 V c).flushed 4 t = ((cfg0.win 4).blk t).view.read (Elt Ideal) (firstArr (V c main_arg0) (V c main_v15) (V c main_v19)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x128) hz0, View.ld_unit_zero (S := S5000x1) hz0]
  obtain ⟨e0, e1, e2, e3, e4, e5, e6, e7, e8, e9⟩ := idx_facts0 t
  funext j
  obtain ⟨r, q, rfl⟩ : ∃ (r : Fin 5000) (q : Fin 128), j = ix2 r q := ⟨j 0, j 1, eq_ix2 j⟩
  show k0_pay1 (F := Ideal) (iblk0 V c 0 t) (iblk0 V c 3 t) (iblk0 V c 1 t) (ix2 r q)
    = (firstArr (V c main_arg0) (V c main_v15) (V c main_v19)) (((cfg0.win 4).blk t).view.emb (ix2 r q))
  have hout : ((cfg0.win 4).blk t).view.emb (ix2 r q) = ix2 (n0 := 100000) (n1 := 128) ⟨win0_4.index t (0 : Fin 2) * 5000 + r.val, by omega⟩ q := by
    funext a; apply Fin.ext
    match a with
    | ⟨0, _⟩ => show win0_4.index t (0 : Fin 2) * 5000 + 1 * r.val = win0_4.index t (0 : Fin 2) * 5000 + r.val; omega
    | ⟨1, _⟩ => show win0_4.index t (1 : Fin 2) * 128 + 1 * q.val = q.val; omega
  rw [hout]
  have rd0 : ∀ c' : Fin 128, iblk0 V c 0 t (ix2 r c') = V c main_arg0 (ix2 (n0 := 100000) (n1 := 128) ⟨win0_4.index t (0 : Fin 2) * 5000 + r.val, by omega⟩ c') := fun c' => by
    show V c main_arg0 (((cfg0.win 0).blk t).view.emb (ix2 r c')) = _
    refine congrArg _ (funext fun a => Fin.ext ?_)
    match a with
    | ⟨0, _⟩ => show win0_0.index t (0 : Fin 2) * 5000 + 1 * r.val = win0_4.index t (0 : Fin 2) * 5000 + r.val; omega
    | ⟨1, _⟩ => show win0_0.index t (1 : Fin 2) * 128 + 1 * c'.val = c'.val; omega
  have rd1 : iblk0 V c 1 t (ix2 r (0 : Fin 1)) = V c main_v15 (ix2 (n0 := 100000) (n1 := 1) ⟨win0_4.index t (0 : Fin 2) * 5000 + r.val, by omega⟩ (0 : Fin 1)) := by
    show V c main_v15 (((cfg0.win 1).blk t).view.emb (ix2 r (0 : Fin 1))) = _
    refine congrArg _ (funext fun a => Fin.ext ?_)
    match a with
    | ⟨0, _⟩ => show win0_1.index t (0 : Fin 2) * 5000 + 1 * r.val = win0_4.index t (0 : Fin 2) * 5000 + r.val; omega
    | ⟨1, _⟩ => show win0_1.index t (1 : Fin 2) * 1 + 1 * 0 = 0; omega
  have rd2 : ∀ c' : Fin 128, iblk0 V c 2 t (ix2 (0 : Fin 1) c') = V c main_v16 (ix2 (n0 := 1) (n1 := 128) (0 : Fin 1) c') := fun c' => by
    show V c main_v16 (((cfg0.win 2).blk t).view.emb (ix2 (0 : Fin 1) c')) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * c'.val = c'.val; omega
  have rd3 : ∀ a' b' : Fin 128, iblk0 V c 3 t (ix2 a' b') = V c main_v19 (ix2 (n0 := 128) (n1 := 128) a' b') := fun a' b' => by
    show V c main_v19 (((cfg0.win 3).blk t).view.emb (ix2 a' b')) = _
    refine congrArg _ (funext fun a => Fin.ext ?_)
    match a with
    | ⟨0, _⟩ => show win0_3.index t (0 : Fin 2) * 128 + 1 * a'.val = a'.val; omega
    | ⟨1, _⟩ => show win0_3.index t (1 : Fin 2) * 128 + 1 * b'.val = b'.val; omega
  refine first_entry _ _ _ _ _ _ r q ⟨win0_4.index t (0 : Fin 2) * 5000 + r.val, by omega⟩ (fun c => ?_) (fun a b => ?_) ?_
  · exact rd0 c
  · exact rd3 a b
  · exact rd1

/-- An index of the array is in point t's block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v20).slice (win0_4.rect t)).set ↔ _
  rw [View.set_slice_whole, Rect.mem_set_unit]
  exact Iff.rfl

/-- THE ARRAY AFTER THE REGION: that function of the arrays the region found. -/
theorem final0 (c : Dev nD) : (dat0 V c).arrAt 4 cfg0.N = firstArr (V c main_arg0) (V c main_v15) (V c main_v19) :=
  (dat0 V c).arrAt_eq_of_cover 4 _ (fun t _ => flushed0_eq V c t) fun i => by
    have hi0 : (i 0).val < 100000 := (i 0).isLt
    have hi1 : (i 1).val < 128 := (i 1).isLt
    obtain ⟨t, ht⟩ := idx_onto0 ⟨(i 0).val / 5000, by omega⟩
    have q0 : win0_4.index t (0 : Fin 2) = (i 0).val / 5000 := congrFun ht 0
    have q1 : win0_4.index t (1 : Fin 2) = 0 := congrFun ht 1
    refine ⟨t, flush0_4 t, ?_⟩
    rw [mem_blk0]
    intro a
    match a with
    | ⟨0, _⟩ => show win0_4.index t (0 : Fin 2) * 5000 ≤ (i 0).val ∧ (i 0).val < win0_4.index t (0 : Fin 2) * 5000 + 5000; omega
    | ⟨1, _⟩ => show win0_4.index t (1 : Fin 2) * 128 ≤ (i 1).val ∧ (i 1).val < win0_4.index t (1 : Fin 2) * 128 + 128; omega

end Cert.KernelIdeal.KValue

end
-- ==== Proof.KernelBlocks1.lean ====
/-
  Region 1 of the kernel program, from blocks to the whole array: its output array ends holding the closing step of the previous layer (aggregated features, dinv column, that layer's bias row) put through the next layer's product and scaling.

  Grid point t works on rows 5000 t … 5000 t + 4999: it reads those rows of the feature array and of the dinv column,
  the whole bias row and the whole weight matrix, and writes those rows of the output.  The twenty blocks tile the
  100000 rows, so the array after the region is that one function of the arrays the region found.
-/
import proofs.«133015_j5600637354462_1_alg».proof.Proof.Gen.KernelIdeal.Frame
import proofs.«133015_j5600637354462_1_alg».proof.Proof.KernelBlockMath

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the feature, dinv and output windows sit at block row t, the bias row and the
    weights at their one block. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every block row is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- WHAT POINT t WRITES BACK is block t of the region's whole-array function. -/
theorem flushed1_eq (c : Dev nD) (t : Fin cfg1.N) :
    (dat1 V c).flushed 4 t = ((cfg1.win 4).blk t).view.read (Elt Ideal) (firstArr (lastArr (V c main_v30) (V c main_v15) (V c main_v33)) (V c main_v15) (V c main_v35)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1, View.ld_unit_zero (S := S128x128) hz1]
  obtain ⟨e0, e1, e2, e3, e4, e5, e6, e7, e8, e9⟩ := idx_facts1 t
  funext j
  obtain ⟨r, q, rfl⟩ : ∃ (r : Fin 5000) (q : Fin 128), j = ix2 r q := ⟨j 0, j 1, eq_ix2 j⟩
  show k1_pay1 (F := Ideal) (iblk1 V c 0 t) (iblk1 V c 1 t) (iblk1 V c 2 t) (iblk1 V c 3 t) (iblk1 V c 1 t) (ix2 r q)
    = (firstArr (lastArr (V c main_v30) (V c main_v15) (V c main_v33)) (V c main_v15) (V c main_v35)) (((cfg1.win 4).blk t).view.emb (ix2 r q))
  have hout : ((cfg1.win 4).blk t).view.emb (ix2 r q) = ix2 (n0 := 100000) (n1 := 128) ⟨win1_4.index t (0 : Fin 2) * 5000 + r.val, by omega⟩ q := by
    funext a; apply Fin.ext
    match a with
    | ⟨0, _⟩ => show win1_4.index t (0 : Fin 2) * 5000 + 1 * r.val = win1_4.index t (0 : Fin 2) * 5000 + r.val; omega
    | ⟨1, _⟩ => show win1_4.index t (1 : Fin 2) * 128 + 1 * q.val = q.val; omega
  rw [hout]
  have rd0 : ∀ c' : Fin 128, iblk1 V c 0 t (ix2 r c') = V c main_v30 (ix2 (n0 := 100000) (n1 := 128) ⟨win1_4.index t (0 : Fin 2) * 5000 + r.val, by omega⟩ c') := fun c' => by
    show V c main_v30 (((cfg1.win 0).blk t).view.emb (ix2 r c')) = _
    refine congrArg _ (funext fun a => Fin.ext ?_)
    match a with
    | ⟨0, _⟩ => show win1_0.index t (0 : Fin 2) * 5000 + 1 * r.val = win1_4.index t (0 : Fin 2) * 5000 + r.val; omega
    | ⟨1, _⟩ => show win1_0.index t (1 : Fin 2) * 128 + 1 * c'.val = c'.val; omega
  have rd1 : iblk1 V c 1 t (ix2 r (0 : Fin 1)) = V c main_v15 (ix2 (n0 := 100000) (n1 := 1) ⟨win1_4.index t (0 : Fin 2) * 5000 + r.val, by omega⟩ (0 : Fin 1)) := by
    show V c main_v15 (((cfg1.win 1).blk t).view.emb (ix2 r (0 : Fin 1))) = _
    refine congrArg _ (funext fun a => Fin.ext ?_)
    match a with
    | ⟨0, _⟩ => show win1_1.index t (0 : Fin 2) * 5000 + 1 * r.val = win1_4.index t (0 : Fin 2) * 5000 + r.val; omega
    | ⟨1, _⟩ => show win1_1.index t (1 : Fin 2) * 1 + 1 * 0 = 0; omega
  have rd2 : ∀ c' : Fin 128, iblk1 V c 2 t (ix2 (0 : Fin 1) c') = V c main_v33 (ix2 (n0 := 1) (n1 := 128) (0 : Fin 1) c') := fun c' => by
    show V c main_v33 (((cfg1.win 2).blk t).view.emb (ix2 (0 : Fin 1) c')) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * c'.val = c'.val; omega
  have rd3 : ∀ a' b' : Fin 128, iblk1 V c 3 t (ix2 a' b') = V c main_v35 (ix2 (n0 := 128) (n1 := 128) a' b') := fun a' b' => by
    show V c main_v35 (((cfg1.win 3).blk t).view.emb (ix2 a' b')) = _
    refine congrArg _ (funext fun a => Fin.ext ?_)
    match a with
    | ⟨0, _⟩ => show win1_3.index t (0 : Fin 2) * 128 + 1 * a'.val = a'.val; omega
    | ⟨1, _⟩ => show win1_3.index t (1 : Fin 2) * 128 + 1 * b'.val = b'.val; omega
  rw [pay1_eq]
  refine first_entry _ _ _ _ _ _ r q ⟨win1_4.index t (0 : Fin 2) * 5000 + r.val, by omega⟩ (fun c => ?_) (fun a b => ?_) ?_
  · exact last_entry _ _ _ _ _ _ r c _ (rd0 c) rd1 (rd2 c)
  · exact rd3 a b
  · exact rd1

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v36).slice (win1_4.rect t)).set ↔ _
  rw [View.set_slice_whole, Rect.mem_set_unit]
  exact Iff.rfl

/-- THE ARRAY AFTER THE REGION: that function of the arrays the region found. -/
theorem final1 (c : Dev nD) : (dat1 V c).arrAt 4 cfg1.N = firstArr (lastArr (V c main_v30) (V c main_v15) (V c main_v33)) (V c main_v15) (V c main_v35) :=
  (dat1 V c).arrAt_eq_of_cover 4 _ (fun t _ => flushed1_eq V c t) fun i => by
    have hi0 : (i 0).val < 100000 := (i 0).isLt
    have hi1 : (i 1).val < 128 := (i 1).isLt
    obtain ⟨t, ht⟩ := idx_onto1 ⟨(i 0).val / 5000, by omega⟩
    have q0 : win1_4.index t (0 : Fin 2) = (i 0).val / 5000 := congrFun ht 0
    have q1 : win1_4.index t (1 : Fin 2) = 0 := congrFun ht 1
    refine ⟨t, flush1_4 t, ?_⟩
    rw [mem_blk1]
    intro a
    match a with
    | ⟨0, _⟩ => show win1_4.index t (0 : Fin 2) * 5000 ≤ (i 0).val ∧ (i 0).val < win1_4.index t (0 : Fin 2) * 5000 + 5000; omega
    | ⟨1, _⟩ => show win1_4.index t (1 : Fin 2) * 128 ≤ (i 1).val ∧ (i 1).val < win1_4.index t (1 : Fin 2) * 128 + 128; omega

end Cert.KernelIdeal.KValue

end
-- ==== Proof.KernelBlocks2.lean ====
/-
  Region 2 of the kernel program, from blocks to the whole array: its output array ends holding the closing step of the previous layer (aggregated features, dinv column, that layer's bias row) put through the next layer's product and scaling.

  Grid point t works on rows 5000 t … 5000 t + 4999: it reads those rows of the feature array and of the dinv column,
  the whole bias row and the whole weight matrix, and writes those rows of the output.  The twenty blocks tile the
  100000 rows, so the array after the region is that one function of the arrays the region found.
-/
import proofs.«133015_j5600637354462_1_alg».proof.Proof.Gen.KernelIdeal.Frame
import proofs.«133015_j5600637354462_1_alg».proof.Proof.KernelBlockMath

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the feature, dinv and output windows sit at block row t, the bias row and the
    weights at their one block. -/
theorem idx_facts2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 19 :=
  (by decide +kernel : ∀ t : Fin grid2.N, _)

/-- Every block row is some point's. -/
theorem idx_onto2 : ∀ q0 : Fin 20, ∃ t : Fin cfg2.N, win2_4.index t = ![q0.val, 0] :=
  (by decide +kernel : ∀ q0 : Fin 20, ∃ t : Fin grid2.N, win2_4.index t = ![q0.val, 0])

/-- WHAT POINT t WRITES BACK is block t of the region's whole-array function. -/
theorem flushed2_eq (c : Dev nD) (t : Fin cfg2.N) :
    (dat2 V c).flushed 4 t = ((cfg2.win 4).blk t).view.read (Elt Ideal) (firstArr (lastArr (V c main_v46) (V c main_v15) (V c main_v49)) (V c main_v15) (V c main_v51)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S5000x1) hz2, View.ld_unit_zero (S := S1x128) hz2, View.ld_unit_zero (S := S128x128) hz2]
  obtain ⟨e0, e1, e2, e3, e4, e5, e6, e7, e8, e9⟩ := idx_facts2 t
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (iblk2 V c 2 t) (iblk2 V c 3 t) (iblk2 V c 1 t) (ix2 r q)
    = (firstArr (lastArr (V c main_v46) (V c main_v15) (V c main_v49)) (V c main_v15) (V c main_v51)) (((cfg2.win 4).blk t).view.emb (ix2 r q))
  have hout : ((cfg2.win 4).blk t).view.emb (ix2 r q) = ix2 (n0 := 100000) (n1 := 128) ⟨win2_4.index t (0 : Fin 2) * 5000 + r.val, by omega⟩ q := by
    funext a; apply Fin.ext
    match a with
    | ⟨0, _⟩ => show win2_4.index t (0 : Fin 2) * 5000 + 1 * r.val = win2_4.index t (0 : Fin 2) * 5000 + r.val; omega
    | ⟨1, _⟩ => show win2_4.index t (1 : Fin 2) * 128 + 1 * q.val = q.val; omega
  rw [hout]
  have rd0 : ∀ c' : Fin 128, iblk2 V c 0 t (ix2 r c') = V c main_v46 (ix2 (n0 := 100000) (n1 := 128) ⟨win2_4.index t (0 : Fin 2) * 5000 + r.val, by omega⟩ c') := fun c' => by
    show V c main_v46 (((cfg2.win 0).blk t).view.emb (ix2 r c')) = _
    refine congrArg _ (funext fun a => Fin.ext ?_)
    match a with
    | ⟨0, _⟩ => show win2_0.index t (0 : Fin 2) * 5000 + 1 * r.val = win2_4.index t (0 : Fin 2) * 5000 + r.val; omega
    | ⟨1, _⟩ => show win2_0.index t (1 : Fin 2) * 128 + 1 * c'.val = c'.val; omega
  have rd1 : iblk2 V c 1 t (ix2 r (0 : Fin 1)) = V c main_v15 (ix2 (n0 := 100000) (n1 := 1) ⟨win2_4.index t (0 : Fin 2) * 5000 + r.val, by omega⟩ (0 : Fin 1)) := by
    show V c main_v15 (((cfg2.win 1).blk t).view.emb (ix2 r (0 : Fin 1))) = _
    refine congrArg _ (funext fun a => Fin.ext ?_)
    match a with
    | ⟨0, _⟩ => show win2_1.index t (0 : Fin 2) * 5000 + 1 * r.val = win2_4.index t (0 : Fin 2) * 5000 + r.val; omega
    | ⟨1, _⟩ => show win2_1.index t (1 : Fin 2) * 1 + 1 * 0 = 0; omega
  have rd2 : ∀ c' : Fin 128, iblk2 V c 2 t (ix2 (0 : Fin 1) c') = V c main_v49 (ix2 (n0 := 1) (n1 := 128) (0 : Fin 1) c') := fun c' => by
    show V c main_v49 (((cfg2.win 2).blk t).view.emb (ix2 (0 : Fin 1) c')) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * c'.val = c'.val; omega
  have rd3 : ∀ a' b' : Fin 128, iblk2 V c 3 t (ix2 a' b') = V c main_v51 (ix2 (n0 := 128) (n1 := 128) a' b') := fun a' b' => by
    show V c main_v51 (((cfg2.win 3).blk t).view.emb (ix2 a' b')) = _
    refine congrArg _ (funext fun a => Fin.ext ?_)
    match a with
    | ⟨0, _⟩ => show win2_3.index t (0 : Fin 2) * 128 + 1 * a'.val = a'.val; omega
    | ⟨1, _⟩ => show win2_3.index t (1 : Fin 2) * 128 + 1 * b'.val = b'.val; omega
  rw [pay2_eq]
  refine first_entry _ _ _ _ _ _ r q ⟨win2_4.index t (0 : Fin 2) * 5000 + r.val, by omega⟩ (fun c => ?_) (fun a b => ?_) ?_
  · exact last_entry _ _ _ _ _ _ r c _ (rd0 c) rd1 (rd2 c)
  · exact rd3 a b
  · exact rd1

/-- An index of the array is in point t's block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v52).slice (win2_4.rect t)).set ↔ _
  rw [View.set_slice_whole, Rect.mem_set_unit]
  exact Iff.rfl

/-- THE ARRAY AFTER THE REGION: that function of the arrays the region found. -/
theorem final2 (c : Dev nD) : (dat2 V c).arrAt 4 cfg2.N = firstArr (lastArr (V c main_v46) (V c main_v15) (V c main_v49)) (V c main_v15) (V c main_v51) :=
  (dat2 V c).arrAt_eq_of_cover 4 _ (fun t _ => flushed2_eq V c t) fun i => by
    have hi0 : (i 0).val < 100000 := (i 0).isLt
    have hi1 : (i 1).val < 128 := (i 1).isLt
    obtain ⟨t, ht⟩ := idx_onto2 ⟨(i 0).val / 5000, by omega⟩
    have q0 : win2_4.index t (0 : Fin 2) = (i 0).val / 5000 := congrFun ht 0
    have q1 : win2_4.index t (1 : Fin 2) = 0 := congrFun ht 1
    refine ⟨t, flush2_4 t, ?_⟩
    rw [mem_blk2]
    intro a
    match a with
    | ⟨0, _⟩ => show win2_4.index t (0 : Fin 2) * 5000 ≤ (i 0).val ∧ (i 0).val < win2_4.index t (0 : Fin 2) * 5000 + 5000; omega
    | ⟨1, _⟩ => show win2_4.index t (1 : Fin 2) * 128 ≤ (i 1).val ∧ (i 1).val < win2_4.index t (1 : Fin 2) * 128 + 128; omega

end Cert.KernelIdeal.KValue

end
-- ==== Proof.KernelBlocks3.lean ====
/-
  Region 3 of the kernel program, from blocks to the whole array: its output array ends holding the closing step of the previous layer (aggregated features, dinv column, that layer's bias row) put through the next layer's product and scaling.

  Grid point t works on rows 5000 t … 5000 t + 4999: it reads those rows of the feature array and of the dinv column,
  the whole bias row and the whole weight matrix, and writes those rows of the output.  The twenty blocks tile the
  100000 rows, so the array after the region is that one function of the arrays the region found.
-/
import proofs.«133015_j5600637354462_1_alg».proof.Proof.Gen.KernelIdeal.Frame
import proofs.«133015_j5600637354462_1_alg».proof.Proof.KernelBlockMath

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the feature, dinv and output windows sit at block row t, the bias row and the
    weights at their one block. -/
theorem idx_facts3 : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every block row is some point's. -/
theorem idx_onto3 : ∀ q0 : Fin 20, ∃ t : Fin cfg3.N, win3_4.index t = ![q0.val, 0] :=
  (by decide +kernel : ∀ q0 : Fin 20, ∃ t : Fin grid3.N, win3_4.index t = ![q0.val, 0])

/-- WHAT POINT t WRITES BACK is block t of the region's whole-array function. -/
theorem flushed3_eq (c : Dev nD) (t : Fin cfg3.N) :
    (dat3 V c).flushed 4 t = ((cfg3.win 4).blk t).view.read (Elt Ideal) (firstArr (lastArr (V c main_v62) (V c main_v15) (V c main_v65)) (V c main_v15) (V c main_v67)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S1x128) hz3, View.ld_unit_zero (S := S128x128) hz3]
  obtain ⟨e0, e1, e2, e3, e4, e5, e6, e7, e8, e9⟩ := idx_facts3 t
  funext j
  obtain ⟨r, q, rfl⟩ : ∃ (r : Fin 5000) (q : Fin 128), j = ix2 r q := ⟨j 0, j 1, eq_ix2 j⟩
  show k3_pay1 (F := Ideal) (iblk3 V c 0 t) (iblk3 V c 1 t) (iblk3 V c 2 t) (iblk3 V c 3 t) (iblk3 V c 1 t) (ix2 r q)
    = (firstArr (lastArr (V c main_v62) (V c main_v15) (V c main_v65)) (V c main_v15) (V c main_v67)) (((cfg3.win 4).blk t).view.emb (ix2 r q))
  have hout : ((cfg3.win 4).blk t).view.emb (ix2 r q) = ix2 (n0 := 100000) (n1 := 128) ⟨win3_4.index t (0 : Fin 2) * 5000 + r.val, by omega⟩ q := by
    funext a; apply Fin.ext
    match a with
    | ⟨0, _⟩ => show win3_4.index t (0 : Fin 2) * 5000 + 1 * r.val = win3_4.index t (0 : Fin 2) * 5000 + r.val; omega
    | ⟨1, _⟩ => show win3_4.index t (1 : Fin 2) * 128 + 1 * q.val = q.val; omega
  rw [hout]
  have rd0 : ∀ c' : Fin 128, iblk3 V c 0 t (ix2 r c') = V c main_v62 (ix2 (n0 := 100000) (n1 := 128) ⟨win3_4.index t (0 : Fin 2) * 5000 + r.val, by omega⟩ c') := fun c' => by
    show V c main_v62 (((cfg3.win 0).blk t).view.emb (ix2 r c')) = _
    refine congrArg _ (funext fun a => Fin.ext ?_)
    match a with
    | ⟨0, _⟩ => show win3_0.index t (0 : Fin 2) * 5000 + 1 * r.val = win3_4.index t (0 : Fin 2) * 5000 + r.val; omega
    | ⟨1, _⟩ => show win3_0.index t (1 : Fin 2) * 128 + 1 * c'.val = c'.val; omega
  have rd1 : iblk3 V c 1 t (ix2 r (0 : Fin 1)) = V c main_v15 (ix2 (n0 := 100000) (n1 := 1) ⟨win3_4.index t (0 : Fin 2) * 5000 + r.val, by omega⟩ (0 : Fin 1)) := by
    show V c main_v15 (((cfg3.win 1).blk t).view.emb (ix2 r (0 : Fin 1))) = _
    refine congrArg _ (funext fun a => Fin.ext ?_)
    match a with
    | ⟨0, _⟩ => show win3_1.index t (0 : Fin 2) * 5000 + 1 * r.val = win3_4.index t (0 : Fin 2) * 5000 + r.val; omega
    | ⟨1, _⟩ => show win3_1.index t (1 : Fin 2) * 1 + 1 * 0 = 0; omega
  have rd2 : ∀ c' : Fin 128, iblk3 V c 2 t (ix2 (0 : Fin 1) c') = V c main_v65 (ix2 (n0 := 1) (n1 := 128) (0 : Fin 1) c') := fun c' => by
    show V c main_v65 (((cfg3.win 2).blk t).view.emb (ix2 (0 : Fin 1) c')) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * c'.val = c'.val; omega
  have rd3 : ∀ a' b' : Fin 128, iblk3 V c 3 t (ix2 a' b') = V c main_v67 (ix2 (n0 := 128) (n1 := 128) a' b') := fun a' b' => by
    show V c main_v67 (((cfg3.win 3).blk t).view.emb (ix2 a' b')) = _
    refine congrArg _ (funext fun a => Fin.ext ?_)
    match a with
    | ⟨0, _⟩ => show win3_3.index t (0 : Fin 2) * 128 + 1 * a'.val = a'.val; omega
    | ⟨1, _⟩ => show win3_3.index t (1 : Fin 2) * 128 + 1 * b'.val = b'.val; omega
  rw [pay3_eq]
  refine first_entry _ _ _ _ _ _ r q ⟨win3_4.index t (0 : Fin 2) * 5000 + r.val, by omega⟩ (fun c => ?_) (fun a b => ?_) ?_
  · exact last_entry _ _ _ _ _ _ r c _ (rd0 c) rd1 (rd2 c)
  · exact rd3 a b
  · exact rd1

/-- An index of the array is in point t's block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v68).slice (win3_4.rect t)).set ↔ _
  rw [View.set_slice_whole, Rect.mem_set_unit]
  exact Iff.rfl

/-- THE ARRAY AFTER THE REGION: that function of the arrays the region found. -/
theorem final3 (c : Dev nD) : (dat3 V c).arrAt 4 cfg3.N = firstArr (lastArr (V c main_v62) (V c main_v15) (V c main_v65)) (V c main_v15) (V c main_v67) :=
  (dat3 V c).arrAt_eq_of_cover 4 _ (fun t _ => flushed3_eq V c t) fun i => by
    have hi0 : (i 0).val < 100000 := (i 0).isLt
    have hi1 : (i 1).val < 128 := (i 1).isLt
    obtain ⟨t, ht⟩ := idx_onto3 ⟨(i 0).val / 5000, by omega⟩
    have q0 : win3_4.index t (0 : Fin 2) = (i 0).val / 5000 := congrFun ht 0
    have q1 : win3_4.index t (1 : Fin 2) = 0 := congrFun ht 1
    refine ⟨t, flush3_4 t, ?_⟩
    rw [mem_blk3]
    intro a
    match a with
    | ⟨0, _⟩ => show win3_4.index t (0 : Fin 2) * 5000 ≤ (i 0).val ∧ (i 0).val < win3_4.index t (0 : Fin 2) * 5000 + 5000; omega
    | ⟨1, _⟩ => show win3_4.index t (1 : Fin 2) * 128 ≤ (i 1).val ∧ (i 1).val < win3_4.index t (1 : Fin 2) * 128 + 128; omega

end Cert.KernelIdeal.KValue

end
-- ==== Proof.KernelBlocks4.lean ====
/-
  Region 4 of the kernel program, from blocks to the whole array: its output array ends holding the closing step of the aggregated features, the dinv column and the last bias row.

  Grid point t works on rows 5000 t … 5000 t + 4999: it reads those rows of the feature array and of the dinv column,
  the whole bias row and the whole weight matrix, and writes those rows of the output.  The twenty blocks tile the
  100000 rows, so the array after the region is that one function of the arrays the region found.
-/
import proofs.«133015_j5600637354462_1_alg».proof.Proof.Gen.KernelIdeal.Frame
import proofs.«133015_j5600637354462_1_alg».proof.Proof.KernelBlockMath

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the feature, dinv and output windows sit at block row t, the bias row and the
    weights at their one block. -/
theorem idx_facts4 : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 ∧ win4_4.index t (0 : Fin 2) ≤ 19 :=
  (by decide +kernel : ∀ t : Fin grid4.N, _)

/-- Every block row is some point's. -/
theorem idx_onto4 : ∀ q0 : Fin 20, ∃ t : Fin cfg4.N, win4_4.index t = ![q0.val, 0] :=
  (by decide +kernel : ∀ q0 : Fin 20, ∃ t : Fin grid4.N, win4_4.index t = ![q0.val, 0])

/-- WHAT POINT t WRITES BACK is block t of the region's whole-array function. -/
theorem flushed4_eq (c : Dev nD) (t : Fin cfg4.N) :
    (dat4 V c).flushed 4 t = ((cfg4.win 4).blk t).view.read (Elt Ideal) (lastArr (V c main_v78) (V c main_v15) (V c main_v81)) := by
  show (cfg4.win 4).cut (grid4.coords t) ((dat4 V c).after 4 t) = _
  rw [after4_4]
  unfold out4_4
  rw [View.canon_unit_zero hz4]
  simp only [View.ld_unit_zero (S := S5000x128) hz4, View.ld_unit_zero (S := S5000x1) hz4, View.ld_unit_zero (S := S1x128) hz4]
  obtain ⟨e0, e1, e2, e3, e4, e5, e6, e7, e8, e9⟩ := idx_facts4 t
  funext j
  obtain ⟨r, q, rfl⟩ : ∃ (r : Fin 5000) (q : Fin 128), j = ix2 r q := ⟨j 0, j 1, eq_ix2 j⟩
  show k4_pay1 (F := Ideal) (iblk4 V c 0 t) (iblk4 V c 1 t) (iblk4 V c 2 t) (ix2 r q)
    = (lastArr (V c main_v78) (V c main_v15) (V c main_v81)) (((cfg4.win 4).blk t).view.emb (ix2 r q))
  have hout : ((cfg4.win 4).blk t).view.emb (ix2 r q) = ix2 (n0 := 100000) (n1 := 128) ⟨win4_4.index t (0 : Fin 2) * 5000 + r.val, by omega⟩ q := by
    funext a; apply Fin.ext
    match a with
    | ⟨0, _⟩ => show win4_4.index t (0 : Fin 2) * 5000 + 1 * r.val = win4_4.index t (0 : Fin 2) * 5000 + r.val; omega
    | ⟨1, _⟩ => show win4_4.index t (1 : Fin 2) * 128 + 1 * q.val = q.val; omega
  rw [hout]
  have rd0 : ∀ c' : Fin 128, iblk4 V c 0 t (ix2 r c') = V c main_v78 (ix2 (n0 := 100000) (n1 := 128) ⟨win4_4.index t (0 : Fin 2) * 5000 + r.val, by omega⟩ c') := fun c' => by
    show V c main_v78 (((cfg4.win 0).blk t).view.emb (ix2 r c')) = _
    refine congrArg _ (funext fun a => Fin.ext ?_)
    match a with
    | ⟨0, _⟩ => show win4_0.index t (0 : Fin 2) * 5000 + 1 * r.val = win4_4.index t (0 : Fin 2) * 5000 + r.val; omega
    | ⟨1, _⟩ => show win4_0.index t (1 : Fin 2) * 128 + 1 * c'.val = c'.val; omega
  have rd1 : iblk4 V c 1 t (ix2 r (0 : Fin 1)) = V c main_v15 (ix2 (n0 := 100000) (n1 := 1) ⟨win4_4.index t (0 : Fin 2) * 5000 + r.val, by omega⟩ (0 : Fin 1)) := by
    show V c main_v15 (((cfg4.win 1).blk t).view.emb (ix2 r (0 : Fin 1))) = _
    refine congrArg _ (funext fun a => Fin.ext ?_)
    match a with
    | ⟨0, _⟩ => show win4_1.index t (0 : Fin 2) * 5000 + 1 * r.val = win4_4.index t (0 : Fin 2) * 5000 + r.val; omega
    | ⟨1, _⟩ => show win4_1.index t (1 : Fin 2) * 1 + 1 * 0 = 0; omega
  have rd2 : ∀ c' : Fin 128, iblk4 V c 2 t (ix2 (0 : Fin 1) c') = V c main_v81 (ix2 (n0 := 1) (n1 := 128) (0 : Fin 1) c') := fun c' => by
    show V c main_v81 (((cfg4.win 2).blk t).view.emb (ix2 (0 : Fin 1) c')) = _
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * c'.val = c'.val; omega
  have rd3 : ∀ a' b' : Fin 128, iblk4 V c 3 t (ix2 a' b') = V c main_v17 (ix2 (n0 := 128) (n1 := 128) a' b') := fun a' b' => by
    show V c main_v17 (((cfg4.win 3).blk t).view.emb (ix2 a' b')) = _
    refine congrArg _ (funext fun a => Fin.ext ?_)
    match a with
    | ⟨0, _⟩ => show win4_3.index t (0 : Fin 2) * 128 + 1 * a'.val = a'.val; omega
    | ⟨1, _⟩ => show win4_3.index t (1 : Fin 2) * 128 + 1 * b'.val = b'.val; omega
  refine last_entry _ _ _ _ _ _ r q ⟨win4_4.index t (0 : Fin 2) * 5000 + r.val, by omega⟩ ?_ ?_ ?_
  · exact rd0 q
  · exact rd1
  · exact rd2 q

/-- An index of the array is in point t's block iff each coordinate is in the block's range on its axis. -/
theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v82).slice (win4_4.rect t)).set ↔ _
  rw [View.set_slice_whole, Rect.mem_set_unit]
  exact Iff.rfl

/-- THE ARRAY AFTER THE REGION: that function of the arrays the region found. -/
theorem final4 (c : Dev nD) : (dat4 V c).arrAt 4 cfg4.N = lastArr (V c main_v78) (V c main_v15) (V c main_v81) :=
  (dat4 V c).arrAt_eq_of_cover 4 _ (fun t _ => flushed4_eq V c t) fun i => by
    have hi0 : (i 0).val < 100000 := (i 0).isLt
    have hi1 : (i 1).val < 128 := (i 1).isLt
    obtain ⟨t, ht⟩ := idx_onto4 ⟨(i 0).val / 5000, by omega⟩
    have q0 : win4_4.index t (0 : Fin 2) = (i 0).val / 5000 := congrFun ht 0
    have q1 : win4_4.index t (1 : Fin 2) = 0 := congrFun ht 1
    refine ⟨t, flush4_4 t, ?_⟩
    rw [mem_blk4]
    intro a
    match a with
    | ⟨0, _⟩ => show win4_4.index t (0 : Fin 2) * 5000 ≤ (i 0).val ∧ (i 0).val < win4_4.index t (0 : Fin 2) * 5000 + 5000; omega
    | ⟨1, _⟩ => show win4_4.index t (1 : Fin 2) * 128 ≤ (i 1).val ∧ (i 1).val < win4_4.index t (1 : Fin 2) * 128 + 128; omega

end Cert.KernelIdeal.KValue

end
-- ==== Proof.KernelChain.lean ====
/-
  The kernel program's buffers at every boundary between its host stretches and its kernel regions, followed from the
  launch memory to the result.

  The edge lists, the dinv column and the argument arrays are written once (or never) and then only read: each later
  boundary finds them as the first region's entry did.  Region k's output is its whole-array function of what its entry
  holds; the stretch after it gathers and scatter-adds that output, slices the next bias row and the next weights.
  Unfolding the layers, the result buffer holds the kernel program's layer applied four times to the node features.
-/
import proofs.«133015_j5600637354462_1_alg».proof.Proof.KernelHost
import proofs.«133015_j5600637354462_1_alg».proof.Proof.KernelLayerApply
import proofs.«133015_j5600637354462_1_alg».proof.Proof.KernelBlocks0
import proofs.«133015_j5600637354462_1_alg».proof.Proof.KernelBlocks1
import proofs.«133015_j5600637354462_1_alg».proof.Proof.KernelBlocks2
import proofs.«133015_j5600637354462_1_alg».proof.Proof.KernelBlocks3
import proofs.«133015_j5600637354462_1_alg».proof.Proof.KernelBlocks4

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

theorem firstArr_congr {X X' : FVec Ideal S100000x128 .f32} {D D' : FVec Ideal S100000x1 .f32} {W W' : FVec Ideal S128x128 .f32}
    (hx : X = X') (hd : D = D') (hw : W = W') : firstArr X D W = firstArr X' D' W' := by subst hx hd hw; rfl
theorem lastArr_congr {A A' : FVec Ideal S100000x128 .f32} {D D' : FVec Ideal S100000x1 .f32} {B B' : FVec Ideal S1x128 .f32}
    (ha : A = A') (hd : D = D') (hb : B = B') : lastArr A D B = lastArr A' D' B' := by subst ha hd hb; rfl
theorem aggr_congr {s s' d d' : IVec S725000 32} {Fm Fm' : FVec Ideal S100000x128 .f32}
    (hs : s = s') (hd : d = d') (hf : Fm = Fm') : aggr (F := Ideal) s d Fm = aggr (F := Ideal) s' d' Fm' := by subst hs hd hf; rfl

variable (m : (ℓ : Loc nD τ sig) → Buf (Elt Ideal) ℓ) (ρ : Dev nD → PrngReg) (c : Dev nD)

/-! ## Region 0's entry (boundary 3) -/
theorem e0_main_v3 : W3 m ρ c (Proc.devRef .tc main_v3) = (srcList (m ((c.tc : Thread nD τ).loc main_arg3))) := first_src (W0 m ρ c)
theorem e0_main_v6 : W3 m ρ c (Proc.devRef .tc main_v6) = (dstList (m ((c.tc : Thread nD τ).loc main_arg3))) := first_dst (W0 m ρ c)
theorem e0_main_v15 : W3 m ρ c (Proc.devRef .tc main_v15) = (dinvCol (F := Ideal) (dstList (m ((c.tc : Thread nD τ).loc main_arg3)))) := first_dinv (W0 m ρ c)
theorem e0_main_arg1 : W3 m ρ c (Proc.devRef .tc main_arg1) = (m ((c.tc : Thread nD τ).loc main_arg1)) := first_keep_main_arg1 (W0 m ρ c)
theorem e0_main_arg2 : W3 m ρ c (Proc.devRef .tc main_arg2) = (m ((c.tc : Thread nD τ).loc main_arg2)) := first_keep_main_arg2 (W0 m ρ c)
theorem e0_x : W3 m ρ c (Proc.devRef .tc main_arg0) = (m ((c.tc : Thread nD τ).loc main_arg0)) := first_keep_main_arg0 (W0 m ρ c)
theorem e0_w : W3 m ρ c (Proc.devRef .tc main_v19) = (weight0 (F := Ideal) (m ((c.tc : Thread nD τ).loc main_arg1))) := first_weight (W0 m ρ c)

/-! ## Region 0's exit (boundary 4) -/
theorem x0_main_v3 : W4 m ρ c (Proc.devRef .tc main_v3) = (srcList (m ((c.tc : Thread nD τ).loc main_arg3))) :=
  (W4_of_ne m ρ c main_v3 (by decide)).trans (e0_main_v3 m ρ c)
theorem x0_main_v6 : W4 m ρ c (Proc.devRef .tc main_v6) = (dstList (m ((c.tc : Thread nD τ).loc main_arg3))) :=
  (W4_of_ne m ρ c main_v6 (by decide)).trans (e0_main_v6 m ρ c)
theorem x0_main_arg1 : W4 m ρ c (Proc.devRef .tc main_arg1) = (m ((c.tc : Thread nD τ).loc main_arg1)) :=
  (W4_of_ne m ρ c main_arg1 (by decide)).trans (e0_main_arg1 m ρ c)
theorem x0_main_arg2 : W4 m ρ c (Proc.devRef .tc main_arg2) = (m ((c.tc : Thread nD τ).loc main_arg2)) :=
  (W4_of_ne m ρ c main_arg2 (by decide)).trans (e0_main_arg2 m ρ c)
theorem x0_main_v15 : W4 m ρ c (Proc.devRef .tc main_v15) = (dinvCol (F := Ideal) (dstList (m ((c.tc : Thread nD τ).loc main_arg3)))) :=
  ((W4_arr m ρ c 1).trans (((dat0 (V3 m ρ) c).arrAt_in 1 rfl _).trans (A_eq0 (V3 m ρ) c 1))).trans (e0_main_v15 m ρ c)
theorem x0_out : W4 m ρ c (Proc.devRef .tc main_v20) = (firstArr (m ((c.tc : Thread nD τ).loc main_arg0)) (dinvCol (F := Ideal) (dstList (m ((c.tc : Thread nD τ).loc main_arg3)))) (weight0 (F := Ideal) (m ((c.tc : Thread nD τ).loc main_arg1)))) :=
  ((W4_arr m ρ c 4).trans (final0 (V3 m ρ) c)).trans
    (firstArr_congr (e0_x m ρ c) (e0_main_v15 m ρ c) (e0_w m ρ c))

/-! ## Region 1's entry (boundary 5) -/
theorem e1_main_v3 : W5 m ρ c (Proc.devRef .tc main_v3) = (srcList (m ((c.tc : Thread nD τ).loc main_arg3))) :=
  (stretch1_keep_main_v3 (W4 m ρ c)).trans (x0_main_v3 m ρ c)
theorem e1_main_v6 : W5 m ρ c (Proc.devRef .tc main_v6) = (dstList (m ((c.tc : Thread nD τ).loc main_arg3))) :=
  (stretch1_keep_main_v6 (W4 m ρ c)).trans (x0_main_v6 m ρ c)
theorem e1_main_v15 : W5 m ρ c (Proc.devRef .tc main_v15) = (dinvCol (F := Ideal) (dstList (m ((c.tc : Thread nD τ).loc main_arg3)))) :=
  (stretch1_keep_main_v15 (W4 m ρ c)).trans (x0_main_v15 m ρ c)
theorem e1_main_arg1 : W5 m ρ c (Proc.devRef .tc main_arg1) = (m ((c.tc : Thread nD τ).loc main_arg1)) :=
  (stretch1_keep_main_arg1 (W4 m ρ c)).trans (x0_main_arg1 m ρ c)
theorem e1_main_arg2 : W5 m ρ c (Proc.devRef .tc main_arg2) = (m ((c.tc : Thread nD τ).loc main_arg2)) :=
  (stretch1_keep_main_arg2 (W4 m ρ c)).trans (x0_main_arg2 m ρ c)
theorem e1_x : W5 m ρ c (Proc.devRef .tc main_v30) = (aggr (F := Ideal) (srcList (m ((c.tc : Thread nD τ).loc main_arg3))) (dstList (m ((c.tc : Thread nD τ).loc main_arg3))) (firstArr (m ((c.tc : Thread nD τ).loc main_arg0)) (dinvCol (F := Ideal) (dstList (m ((c.tc : Thread nD τ).loc main_arg3)))) (weight0 (F := Ideal) (m ((c.tc : Thread nD τ).loc main_arg1))))) :=
  (stretch1_agg (W4 m ρ c)).trans (aggr_congr (x0_main_v3 m ρ c) (x0_main_v6 m ρ c) (x0_out m ρ c))
theorem e1_b : W5 m ρ c (Proc.devRef .tc main_v33) = (biasRow0 (F := Ideal) (m ((c.tc : Thread nD τ).loc main_arg2))) :=
  (stretch1_bias (W4 m ρ c)).trans (congrArg (biasRow0 (F := Ideal)) (x0_main_arg2 m ρ c))
theorem e1_w : W5 m ρ c (Proc.devRef .tc main_v35) = (weight1 (F := Ideal) (m ((c.tc : Thread nD τ).loc main_arg1))) :=
  (stretch1_weight (W4 m ρ c)).trans (congrArg (weight1 (F := Ideal)) (x0_main_arg1 m ρ c))

/-! ## Region 1's exit (boundary 6) -/
theorem x1_main_v3 : W6 m ρ c (Proc.devRef .tc main_v3) = (srcList (m ((c.tc : Thread nD τ).loc main_arg3))) :=
  (W6_of_ne m ρ c main_v3 (by decide)).trans (e1_main_v3 m ρ c)
theorem x1_main_v6 : W6 m ρ c (Proc.devRef .tc main_v6) = (dstList (m ((c.tc : Thread nD τ).loc main_arg3))) :=
  (W6_of_ne m ρ c main_v6 (by decide)).trans (e1_main_v6 m ρ c)
theorem x1_main_arg1 : W6 m ρ c (Proc.devRef .tc main_arg1) = (m ((c.tc : Thread nD τ).loc main_arg1)) :=
  (W6_of_ne m ρ c main_arg1 (by decide)).trans (e1_main_arg1 m ρ c)
theorem x1_main_arg2 : W6 m ρ c (Proc.devRef .tc main_arg2) = (m ((c.tc : Thread nD τ).loc main_arg2)) :=
  (W6_of_ne m ρ c main_arg2 (by decide)).trans (e1_main_arg2 m ρ c)
theorem x1_main_v15 : W6 m ρ c (Proc.devRef .tc main_v15) = (dinvCol (F := Ideal) (dstList (m ((c.tc : Thread nD τ).loc main_arg3)))) :=
  ((W6_arr m ρ c 1).trans (((dat1 (V5 m ρ) c).arrAt_in 1 rfl _).trans (A_eq1 (V5 m ρ) c 1))).trans (e1_main_v15 m ρ c)
theorem x1_out : W6 m ρ c (Proc.devRef .tc main_v36) = (firstArr (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (dinvCol (F := Ideal) (dstList (m ((c.tc : Thread nD τ).loc main_arg3)))) (weight1 (F := Ideal) (m ((c.tc : Thread nD τ).loc main_arg1)))) :=
  ((W6_arr m ρ c 4).trans (final1 (V5 m ρ) c)).trans
    (firstArr_congr (lastArr_congr (e1_x m ρ c) (e1_main_v15 m ρ c) (e1_b m ρ c)) (e1_main_v15 m ρ c) (e1_w m ρ c))

/-! ## Region 2's entry (boundary 7) -/
theorem e2_main_v3 : W7 m ρ c (Proc.devRef .tc main_v3) = (srcList (m ((c.tc : Thread nD τ).loc main_arg3))) :=
  (stretch2_keep_main_v3 (W6 m ρ c)).trans (x1_main_v3 m ρ c)
theorem e2_main_v6 : W7 m ρ c (Proc.devRef .tc main_v6) = (dstList (m ((c.tc : Thread nD τ).loc main_arg3))) :=
  (stretch2_keep_main_v6 (W6 m ρ c)).trans (x1_main_v6 m ρ c)
theorem e2_main_v15 : W7 m ρ c (Proc.devRef .tc main_v15) = (dinvCol (F := Ideal) (dstList (m ((c.tc : Thread nD τ).loc main_arg3)))) :=
  (stretch2_keep_main_v15 (W6 m ρ c)).trans (x1_main_v15 m ρ c)
theorem e2_main_arg1 : W7 m ρ c (Proc.devRef .tc main_arg1) = (m ((c.tc : Thread nD τ).loc main_arg1)) :=
  (stretch2_keep_main_arg1 (W6 m ρ c)).trans (x1_main_arg1 m ρ c)
theorem e2_main_arg2 : W7 m ρ c (Proc.devRef .tc main_arg2) = (m ((c.tc : Thread nD τ).loc main_arg2)) :=
  (stretch2_keep_main_arg2 (W6 m ρ c)).trans (x1_main_arg2 m ρ c)
theorem e2_x : W7 m ρ c (Proc.devRef .tc main_v46) = (aggr (F := Ideal) (srcList (m ((c.tc : Thread nD τ).loc main_arg3))) (dstList (m ((c.tc : Thread nD τ).loc main_arg3))) (firstArr (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (dinvCol (F := Ideal) (dstList (m ((c.tc : Thread nD τ).loc main_arg3)))) (weight1 (F := Ideal) (m ((c.tc : Thread nD τ).loc main_arg1))))) :=
  (stretch2_agg (W6 m ρ c)).trans (aggr_congr (x1_main_v3 m ρ c) (x1_main_v6 m ρ c) (x1_out m ρ c))
theorem e2_b : W7 m ρ c (Proc.devRef .tc main_v49) = (biasRow1 (F := Ideal) (m ((c.tc : Thread nD τ).loc main_arg2))) :=
  (stretch2_bias (W6 m ρ c)).trans (congrArg (biasRow1 (F := Ideal)) (x1_main_arg2 m ρ c))
theorem e2_w : W7 m ρ c (Proc.devRef .tc main_v51) = (weight2 (F := Ideal) (m ((c.tc : Thread nD τ).loc main_arg1))) :=
  (stretch2_weight (W6 m ρ c)).trans (congrArg (weight2 (F := Ideal)) (x1_main_arg1 m ρ c))

/-! ## Region 2's exit (boundary 8) -/
theorem x2_main_v3 : W8 m ρ c (Proc.devRef .tc main_v3) = (srcList (m ((c.tc : Thread nD τ).loc main_arg3))) :=
  (W8_of_ne m ρ c main_v3 (by decide)).trans (e2_main_v3 m ρ c)
theorem x2_main_v6 : W8 m ρ c (Proc.devRef .tc main_v6) = (dstList (m ((c.tc : Thread nD τ).loc main_arg3))) :=
  (W8_of_ne m ρ c main_v6 (by decide)).trans (e2_main_v6 m ρ c)
theorem x2_main_arg1 : W8 m ρ c (Proc.devRef .tc main_arg1) = (m ((c.tc : Thread nD τ).loc main_arg1)) :=
  (W8_of_ne m ρ c main_arg1 (by decide)).trans (e2_main_arg1 m ρ c)
theorem x2_main_arg2 : W8 m ρ c (Proc.devRef .tc main_arg2) = (m ((c.tc : Thread nD τ).loc main_arg2)) :=
  (W8_of_ne m ρ c main_arg2 (by decide)).trans (e2_main_arg2 m ρ c)
theorem x2_main_v15 : W8 m ρ c (Proc.devRef .tc main_v15) = (dinvCol (F := Ideal) (dstList (m ((c.tc : Thread nD τ).loc main_arg3)))) :=
  ((W8_arr m ρ c 1).trans (((dat2 (V7 m ρ) c).arrAt_in 1 rfl _).trans (A_eq2 (V7 m ρ) c 1))).trans (e2_main_v15 m ρ c)
theorem x2_out : W8 m ρ c (Proc.devRef .tc main_v52) = (firstArr (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (weight1 (F := Ideal) (m ((c.tc : Thread nD τ).loc main_arg1))) (biasRow1 (F := Ideal) (m ((c.tc : Thread nD τ).loc main_arg2)))) (dinvCol (F := Ideal) (dstList (m ((c.tc : Thread nD τ).loc main_arg3)))) (weight2 (F := Ideal) (m ((c.tc : Thread nD τ).loc main_arg1)))) :=
  ((W8_arr m ρ c 4).trans (final2 (V7 m ρ) c)).trans
    (firstArr_congr (lastArr_congr (e2_x m ρ c) (e2_main_v15 m ρ c) (e2_b m ρ c)) (e2_main_v15 m ρ c) (e2_w m ρ c))

/-! ## Region 3's entry (boundary 9) -/
theorem e3_main_v3 : W9 m ρ c (Proc.devRef .tc main_v3) = (srcList (m ((c.tc : Thread nD τ).loc main_arg3))) :=
  (stretch3_keep_main_v3 (W8 m ρ c)).trans (x2_main_v3 m ρ c)
theorem e3_main_v6 : W9 m ρ c (Proc.devRef .tc main_v6) = (dstList (m ((c.tc : Thread nD τ).loc main_arg3))) :=
  (stretch3_keep_main_v6 (W8 m ρ c)).trans (x2_main_v6 m ρ c)
theorem e3_main_v15 : W9 m ρ c (Proc.devRef .tc main_v15) = (dinvCol (F := Ideal) (dstList (m ((c.tc : Thread nD τ).loc main_arg3)))) :=
  (stretch3_keep_main_v15 (W8 m ρ c)).trans (x2_main_v15 m ρ c)
theorem e3_main_arg1 : W9 m ρ c (Proc.devRef .tc main_arg1) = (m ((c.tc : Thread nD τ).loc main_arg1)) :=
  (stretch3_keep_main_arg1 (W8 m ρ c)).trans (x2_main_arg1 m ρ c)
theorem e3_main_arg2 : W9 m ρ c (Proc.devRef .tc main_arg2) = (m ((c.tc : Thread nD τ).loc main_arg2)) :=
  (stretch3_keep_main_arg2 (W8 m ρ c)).trans (x2_main_arg2 m ρ c)
theorem e3_x : W9 m ρ c (Proc.devRef .tc main_v62) = (aggr (F := Ideal) (srcList (m ((c.tc : Thread nD τ).loc main_arg3))) (dstList (m ((c.tc : Thread nD τ).loc main_arg3))) (firstArr (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (weight1 (F := Ideal) (m ((c.tc : Thread nD τ).loc main_arg1))) (biasRow1 (F := Ideal) (m ((c.tc : Thread nD τ).loc main_arg2)))) (dinvCol (F := Ideal) (dstList (m ((c.tc : Thread nD τ).loc main_arg3)))) (weight2 (F := Ideal) (m ((c.tc : Thread nD τ).loc main_arg1))))) :=
  (stretch3_agg (W8 m ρ c)).trans (aggr_congr (x2_main_v3 m ρ c) (x2_main_v6 m ρ c) (x2_out m ρ c))
theorem e3_b : W9 m ρ c (Proc.devRef .tc main_v65) = (biasRow2 (F := Ideal) (m ((c.tc : Thread nD τ).loc main_arg2))) :=
  (stretch3_bias (W8 m ρ c)).trans (congrArg (biasRow2 (F := Ideal)) (x2_main_arg2 m ρ c))
theorem e3_w : W9 m ρ c (Proc.devRef .tc main_v67) = (weight3 (F := Ideal) (m ((c.tc : Thread nD τ).loc main_arg1))) :=
  (stretch3_weight (W8 m ρ c)).trans (congrArg (weight3 (F := Ideal)) (x2_main_arg1 m ρ c))

/-! ## Region 3's exit (boundary 10) -/
theorem x3_main_v3 : W10 m ρ c (Proc.devRef .tc main_v3) = (srcList (m ((c.tc : Thread nD τ).loc main_arg3))) :=
  (W10_of_ne m ρ c main_v3 (by decide)).trans (e3_main_v3 m ρ c)
theorem x3_main_v6 : W10 m ρ c (Proc.devRef .tc main_v6) = (dstList (m ((c.tc : Thread nD τ).loc main_arg3))) :=
  (W10_of_ne m ρ c main_v6 (by decide)).trans (e3_main_v6 m ρ c)
theorem x3_main_arg1 : W10 m ρ c (Proc.devRef .tc main_arg1) = (m ((c.tc : Thread nD τ).loc main_arg1)) :=
  (W10_of_ne m ρ c main_arg1 (by decide)).trans (e3_main_arg1 m ρ c)
theorem x3_main_arg2 : W10 m ρ c (Proc.devRef .tc main_arg2) = (m ((c.tc : Thread nD τ).loc main_arg2)) :=
  (W10_of_ne m ρ c main_arg2 (by decide)).trans (e3_main_arg2 m ρ c)
theorem x3_main_v15 : W10 m ρ c (Proc.devRef .tc main_v15) = (dinvCol (F := Ideal) (dstList (m ((c.tc : Thread nD τ).loc main_arg3)))) :=
  ((W10_arr m ρ c 1).trans (((dat3 (V9 m ρ) c).arrAt_in 1 rfl _).trans (A_eq3 (V9 m ρ) c 1))).trans (e3_main_v15 m ρ c)
theorem x3_out : W10 m ρ c (Proc.devRef .tc main_v68) = (firstArr (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (weight1 (F := Ideal) (m ((c.tc : Thread nD τ).loc main_arg1))) (biasRow1 (F := Ideal) (m ((c.tc : Thread nD τ).loc main_arg2)))) (weight2 (F := Ideal) (m ((c.tc : Thread nD τ).loc main_arg1))) (biasRow2 (F := Ideal) (m ((c.tc : Thread nD τ).loc main_arg2)))) (dinvCol (F := Ideal) (dstList (m ((c.tc : Thread nD τ).loc main_arg3)))) (weight3 (F := Ideal) (m ((c.tc : Thread nD τ).loc main_arg1)))) :=
  ((W10_arr m ρ c 4).trans (final3 (V9 m ρ) c)).trans
    (firstArr_congr (lastArr_congr (e3_x m ρ c) (e3_main_v15 m ρ c) (e3_b m ρ c)) (e3_main_v15 m ρ c) (e3_w m ρ c))

/-! ## Region 4's entry (boundary 11) -/
theorem e4_main_v3 : W11 m ρ c (Proc.devRef .tc main_v3) = (srcList (m ((c.tc : Thread nD τ).loc main_arg3))) :=
  (stretch4_keep_main_v3 (W10 m ρ c)).trans (x3_main_v3 m ρ c)
theorem e4_main_v6 : W11 m ρ c (Proc.devRef .tc main_v6) = (dstList (m ((c.tc : Thread nD τ).loc main_arg3))) :=
  (stretch4_keep_main_v6 (W10 m ρ c)).trans (x3_main_v6 m ρ c)
theorem e4_main_v15 : W11 m ρ c (Proc.devRef .tc main_v15) = (dinvCol (F := Ideal) (dstList (m ((c.tc : Thread nD τ).loc main_arg3)))) :=
  (stretch4_keep_main_v15 (W10 m ρ c)).trans (x3_main_v15 m ρ c)
theorem e4_main_arg1 : W11 m ρ c (Proc.devRef .tc main_arg1) = (m ((c.tc : Thread nD τ).loc main_arg1)) :=
  (stretch4_keep_main_arg1 (W10 m ρ c)).trans (x3_main_arg1 m ρ c)
theorem e4_main_arg2 : W11 m ρ c (Proc.devRef .tc main_arg2) = (m ((c.tc : Thread nD τ).loc main_arg2)) :=
  (stretch4_keep_main_arg2 (W10 m ρ c)).trans (x3_main_arg2 m ρ c)
theorem e4_x : W11 m ρ c (Proc.devRef .tc main_v78) = (aggr (F := Ideal) (srcList (m ((c.tc : Thread nD τ).loc main_arg3))) (dstList (m ((c.tc : Thread nD τ).loc main_arg3))) (firstArr (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (weight1 (F := Ideal) (m ((c.tc : Thread nD τ).loc main_arg1))) (biasRow1 (F := Ideal) (m ((c.tc : Thread nD τ).loc main_arg2)))) (weight2 (F := Ideal) (m ((c.tc : Thread nD τ).loc main_arg1))) (biasRow2 (F := Ideal) (m ((c.tc : Thread nD τ).loc main_arg2)))) (dinvCol (F := Ideal) (dstList (m ((c.tc : Thread nD τ).loc main_arg3)))) (weight3 (F := Ideal) (m ((c.tc : Thread nD τ).loc main_arg1))))) :=
  (stretch4_agg (W10 m ρ c)).trans (aggr_congr (x3_main_v3 m ρ c) (x3_main_v6 m ρ c) (x3_out m ρ c))
theorem e4_b : W11 m ρ c (Proc.devRef .tc main_v81) = (biasRow3 (F := Ideal) (m ((c.tc : Thread nD τ).loc main_arg2))) :=
  (stretch4_bias (W10 m ρ c)).trans (congrArg (biasRow3 (F := Ideal)) (x3_main_arg2 m ρ c))

/-! ## Region 4's exit (boundary 12) -/
/-- THE RESULT BUFFER after the last region: four layers of the kernel program applied to the node features. -/
theorem result_eq : W12 m ρ c (Proc.devRef .tc main_v82) = (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (kerLayer (dinvCol (F := Ideal) (dstList (m ((c.tc : Thread nD τ).loc main_arg3)))) (srcList (m ((c.tc : Thread nD τ).loc main_arg3))) (dstList (m ((c.tc : Thread nD τ).loc main_arg3))) (m ((c.tc : Thread nD τ).loc main_arg0)) (weight0 (F := Ideal) (m ((c.tc : Thread nD τ).loc main_arg1))) (biasRow0 (F := Ideal) (m ((c.tc : Thread nD τ).loc main_arg2)))) (weight1 (F := Ideal) (m ((c.tc : Thread nD τ).loc main_arg1))) (biasRow1 (F := Ideal) (m ((c.tc : Thread nD τ).loc main_arg2)))) (weight2 (F := Ideal) (m ((c.tc : Thread nD τ).loc main_arg1))) (biasRow2 (F := Ideal) (m ((c.tc : Thread nD τ).loc main_arg2)))) (weight3 (F := Ideal) (m ((c.tc : Thread nD τ).loc main_arg1))) (biasRow3 (F := Ideal) (m ((c.tc : Thread nD τ).loc main_arg2)))) :=
  ((W12_arr m ρ c 4).trans (final4 (V11 m ρ) c)).trans
    (lastArr_congr (e4_x m ρ c) (e4_main_v15 m ρ c) (e4_b m ρ c))

end Cert.KernelIdeal.KValue

end
-- ==== Proof.HostLayer.lean ====
/-
  The reference program's graph-convolution layer as ONE function of whole arrays, built from the host operations
  the reference applies, and the pieces every layer shares: the edge lists with the self-loops appended, the degree
  normalisation dinv, the k-th weight matrix and bias vector.

  A layer takes node features X [100000, 128]: the dense product X W, a gather of its rows at the edges' source nodes,
  each gathered row scaled by norm(k) = dinv(src k) · dinv(dst k), a scatter-add of the scaled rows to the edges'
  destination nodes, the bias added to every row, and the maximum with zero.
-/
import proofs.«133015_j5600637354462_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Row `r` (0: sources, 1: destinations) of the edge index, followed by the 100000 self-loops 0, 1, 2, …. -/
def srcList (x3 : IVec S2x625000 32) : IVec S725000 32 :=
  concatenate S725000 0 [⟨S625000, (shapeCast _ (extractStridedSlice S1x625000 ![0, 0] x3 slices_S2x625000_S1x625000_0_0) shapeCasts_S1x625000_S625000)⟩, ⟨S100000, (iotaInDim S100000 32 0)⟩] concatenates_S625000_S100000_S725000_d0
def dstList (x3 : IVec S2x625000 32) : IVec S725000 32 :=
  concatenate S725000 0 [⟨S625000, (shapeCast _ (extractStridedSlice S1x625000 ![1, 0] x3 slices_S2x625000_S1x625000_1_0) shapeCasts_S1x625000_S625000)⟩, ⟨S100000, (iotaInDim S100000 32 0)⟩] concatenates_S625000_S100000_S725000_d0

/-- An index list as a column of start indices. -/
def rawCol (v : IVec S725000 32) : IVec S725000x1 32 :=
  broadcastInDim S725000x1 ![0] bcast_S725000_S725000x1_0 v

/-- An index list as a column, a negative word `w` first replaced by `w + 100000` (an index counted from the end). -/
def normCol (v : IVec S725000 32) : IVec S725000x1 32 :=
  broadcastInDim S725000x1 ![0] bcast_S725000_S725000x1_0 (select (cmpi .slt v (broadcastInDim S725000 ![] bcast_S_S725000 (constantI S_ 32 0#32))) (addi v (broadcastInDim S725000 ![] bcast_S_S725000 (constantI S_ 32 100000#32))) v)

/-- The degree of every node: one for each edge (self-loop included) that ends there. -/
def degree (dstV : IVec S725000 32) : FVec F S100000 .f32 :=
  Host.scatterAdd scatter_S100000_S725000x1_S725000_n_0_0_1 (broadcastInDim S100000 ![] bcast_S_S100000 (constant S_ .f32 0x00000000#32)) (rawCol dstV) (broadcastInDim S725000 ![] bcast_S_S725000 (constant S_ .f32 0x3F800000#32))

/-- dinv: the reciprocal square root of a positive degree, zero elsewhere. -/
def dinv (dstV : IVec S725000 32) : FVec F S100000 .f32 :=
  select (cmpf (F := F) .ogt (degree dstV) (broadcastInDim S100000 ![] bcast_S_S100000 (constant S_ .f32 0x00000000#32))) (Host.rsqrt (degree dstV)) (broadcastInDim S100000 ![] bcast_S_S100000 (id (constant S_ .f32 0x00000000#32)))

def weight0 (x1 : FVec F S4x128x128 .f32) : FVec F S128x128 .f32 :=
  shapeCast _ (extractStridedSlice S1x128x128 ![0, 0, 0] x1 slices_S4x128x128_S1x128x128_0_0_0) shapeCasts_S1x128x128_S128x128
def weight1 (x1 : FVec F S4x128x128 .f32) : FVec F S128x128 .f32 :=
  shapeCast _ (extractStridedSlice S1x128x128 ![1, 0, 0] x1 slices_S4x128x128_S1x128x128_1_0_0) shapeCasts_S1x128x128_S128x128
def weight2 (x1 : FVec F S4x128x128 .f32) : FVec F S128x128 .f32 :=
  shapeCast _ (extractStridedSlice S1x128x128 ![2, 0, 0] x1 slices_S4x128x128_S1x128x128_2_0_0) shapeCasts_S1x128x128_S128x128
def weight3 (x1 : FVec F S4x128x128 .f32) : FVec F S128x128 .f32 :=
  shapeCast _ (extractStridedSlice S1x128x128 ![3, 0, 0] x1 slices_S4x128x128_S1x128x128_3_0_0) shapeCasts_S1x128x128_S128x128
def bias0 (x2 : FVec F S4x128 .f32) : FVec F S128 .f32 :=
  shapeCast _ (extractStridedSlice S1x128 ![0, 0] x2 slices_S4x128_S1x128_0_0) shapeCasts_S1x128_S128
def bias1 (x2 : FVec F S4x128 .f32) : FVec F S128 .f32 :=
  shapeCast _ (extractStridedSlice S1x128 ![1, 0] x2 slices_S4x128_S1x128_1_0) shapeCasts_S1x128_S128
def bias2 (x2 : FVec F S4x128 .f32) : FVec F S128 .f32 :=
  shapeCast _ (extractStridedSlice S1x128 ![2, 0] x2 slices_S4x128_S1x128_2_0) shapeCasts_S1x128_S128
def bias3 (x2 : FVec F S4x128 .f32) : FVec F S128 .f32 :=
  shapeCast _ (extractStridedSlice S1x128 ![3, 0] x2 slices_S4x128_S1x128_3_0) shapeCasts_S1x128_S128

/-- ONE LAYER of the reference, on whole arrays. -/
def hostLayer (dv : FVec F S100000 .f32) (srcV dstV : IVec S725000 32) (X : FVec F S100000x128 .f32)
    (Wt : FVec F S128x128 .f32) (bv : FVec F S128 .f32) : FVec F S100000x128 .f32 :=
  maximumf (addf (Host.scatterAdd scatter_S100000x128_S725000x1_S725000x128_1_0_0_1 (broadcastInDim S100000x128 ![] bcast_S_S100000x128 (constant S_ .f32 0x00000000#32)) (rawCol dstV) (mulf (Host.gather gather_S100000x128_S725000x1_S725000x128_1_0_n_n_0_1_1128 (Host.dotGeneral dot_S100000x128_S128x128_S100000x128_1_0_0_1_n_n none X Wt) (normCol srcV)) (broadcastInDim S725000x128 ![0, 1] bcast_S725000x1_S725000x128_0_1 (broadcastInDim S725000x1 ![0] bcast_S725000_S725000x1_0 (mulf (Host.gather gather_S100000_S725000x1_S725000_n_0_n_n_0_1_1 dv (normCol srcV)) (Host.gather gather_S100000_S725000x1_S725000_n_0_n_n_0_1_1 dv (normCol dstV))))))) (broadcastInDim S100000x128 ![0, 1] bcast_S1x128_S100000x128_0_1 (broadcastInDim S1x128 ![1] bcast_S128_S1x128_1 bv))) (broadcastInDim S100000x128 ![] bcast_S_S100000x128 (constant S_ .f32 0x00000000#32))

/-- THE REFERENCE'S FOUR LAYERS, as a function of the four argument arrays. -/
def hostNet (x0 : FVec F S100000x128 .f32) (x1 : FVec F S4x128x128 .f32) (x2 : FVec F S4x128 .f32)
    (x3 : IVec S2x625000 32) : FVec F S100000x128 .f32 :=
  hostLayer (dinv (dstList x3)) (srcList x3) (dstList x3)
    (hostLayer (dinv (dstList x3)) (srcList x3) (dstList x3)
      (hostLayer (dinv (dstList x3)) (srcList x3) (dstList x3)
        (hostLayer (dinv (dstList x3)) (srcList x3) (dstList x3) x0 (weight0 x1) (bias0 x2))
        (weight1 x1) (bias1 x2))
      (weight2 x1) (bias2 x2))
    (weight3 x1) (bias3 x2)

end Cert.ReferenceIdeal.RefValue

end
-- ==== Proof.RefValue.lean ====
/-
  The reference program's result, as its run states it, IS the four layers of HostLayer applied to the argument arrays:
  the run's composed term spells out the same operations, layer inside layer.
-/
import proofs.«133015_j5600637354462_1_alg».proof.Proof.RefRunPatched
import proofs.«133015_j5600637354462_1_alg».proof.Proof.HostLayer

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The run's result term is `hostNet` of the four arguments' launch contents. -/
theorem res_eq (m : (ℓ : Loc nD τ sig) → Buf (Elt F) ℓ) (c : Dev nD) :
    Cert.ReferenceIdeal.ValueP.res_main_v114 (F := F) m c
      = hostNet (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v114
  rfl

end Cert.ReferenceIdeal.RefValue

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.HostLayerApply.lean ====
/-
  The reference's layer read at one entry: at node p and feature q it is the edge-weighted sum of GcnAlgebra, over
  the edges whose destination word, read as a signed integer, is p.

  The scatter-add keeps an update row exactly when its index word names an operand row (no clamping); a gather reads the
  row its start index names after clamping into [0, 99999].  So the sum ranges over the edges k with dst word = p, and
  each term is the dense product's row at the clamped source node, times dinv at the clamped source node times dinv at
  the clamped destination node.
-/
import proofs.«133015_j5600637354462_1_alg».proof.Proof.HostLayer
import proofs.«133015_j5600637354462_1_alg».proof.Proof.GcnAlgebra
import proofs.«133015_j5600637354462_1_alg».proof.Proof.LibScatterRows
import proofs.«133015_j5600637354462_1_alg».proof.Proof.LibGatherRows
import proofs.«133015_j5600637354462_1_alg».proof.Proof.LibGatherRows2
import proofs.«133015_j5600637354462_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Broadcasts along unit axes, read at an index -/

section bcast
variable {α : Type}

theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

theorem bcast_col_apply {n : ℕ} (hn : n ≠ 1) (h : (⟨1, ![n]⟩ : Shape).BroadcastsInDim ⟨2, ![n, 1]⟩ ![0])
    (v : (⟨1, ![n]⟩ : Shape).Idx → α) (k : Fin n) (u : Fin 1) :
    broadcastInDim ⟨2, ![n, 1]⟩ ![0] h v (ix2 k u) = v (ix1 k) :=
  broadcastInDim_apply _ h v (ix2 k u) (ix1 k) (fun a => by
    match a with
    | ⟨0, _⟩ => show k.val = if n = 1 then 0 else k.val; rw [if_neg hn])

theorem bcast_col_rows_apply {n c : ℕ} (hn : n ≠ 1) (h : (⟨2, ![n, 1]⟩ : Shape).BroadcastsInDim ⟨2, ![n, c]⟩ ![0, 1])
    (v : (⟨2, ![n, 1]⟩ : Shape).Idx → α) (k : Fin n) (q : Fin c) :
    broadcastInDim ⟨2, ![n, c]⟩ ![0, 1] h v (ix2 k q) = v (ix2 k (0 : Fin 1)) :=
  broadcastInDim_apply _ h v (ix2 k q) (ix2 k (0 : Fin 1)) (fun a => by
    match a with
    | ⟨0, _⟩ => show k.val = if n = 1 then 0 else k.val; rw [if_neg hn]
    | ⟨1, _⟩ => exact (if_pos rfl).symm)

theorem bcast_vec_row_apply {c : ℕ} (hc : c ≠ 1) (h : (⟨1, ![c]⟩ : Shape).BroadcastsInDim ⟨2, ![1, c]⟩ ![1])
    (v : (⟨1, ![c]⟩ : Shape).Idx → α) (u : Fin 1) (q : Fin c) :
    broadcastInDim ⟨2, ![1, c]⟩ ![1] h v (ix2 u q) = v (ix1 q) :=
  broadcastInDim_apply _ h v (ix2 u q) (ix1 q) (fun a => by
    match a with
    | ⟨0, _⟩ => show q.val = if c = 1 then 0 else q.val; rw [if_neg hc])

theorem bcast_row_rows_apply {n c : ℕ} (hc : c ≠ 1) (h : (⟨2, ![1, c]⟩ : Shape).BroadcastsInDim ⟨2, ![n, c]⟩ ![0, 1])
    (v : (⟨2, ![1, c]⟩ : Shape).Idx → α) (p : Fin n) (q : Fin c) :
    broadcastInDim ⟨2, ![n, c]⟩ ![0, 1] h v (ix2 p q) = v (ix2 (0 : Fin 1) q) :=
  broadcastInDim_apply _ h v (ix2 p q) (ix2 (0 : Fin 1) q) (fun a => by
    match a with
    | ⟨0, _⟩ => exact (if_pos rfl).symm
    | ⟨1, _⟩ => show q.val = if c = 1 then 0 else q.val; rw [if_neg hc])

end bcast

/-! ## The layer at an entry -/

/-- The node a column's k-th start index names, read signed and clamped into [0, 99999]. -/
def nodeOf (col : IVec S725000x1 32) (k : Fin 725000) : Fin 100000 :=
  ⟨min (col (ix2 k (0 : Fin 1))).toInt.toNat (100000 - 1), by omega⟩

/-- The scatter-add of rows at (p, q): the operand there plus the update rows whose index word, read signed, is p. -/
theorem scatter_rows_at (x : FVec Ideal S100000x128 .f32) (idx : IVec S725000x1 32) (upd : FVec Ideal S725000x128 .f32)
    (p : Fin 100000) (q : Fin 128) :
    Host.scatterAdd scatter_S100000x128_S725000x1_S725000x128_1_0_0_1 x idx upd (ix2 p q)
      = x (ix2 p q) + ∑ k ∈ Finset.univ.filter (fun k : Fin 725000 => (idx (ix2 k (0 : Fin 1))).toInt = (p.val : Int)),
          upd (ix2 k q) :=
  ScatterRows.scatterAdd_rows_apply (N := 100000) (R := 725000) (C := 128)
    scatter_S100000x128_S725000x1_S725000x128_1_0_0_1_wf idx x upd p q

/-- The gather of rows at (k, q): the operand's row at the clamped start index. -/
theorem gather_mat_at (x : FVec Ideal S100000x128 .f32) (idx : IVec S725000x1 32) (k : Fin 725000) (q : Fin 128) :
    Host.gather gather_S100000x128_S725000x1_S725000x128_1_0_n_n_0_1_1128 x idx (ix2 k q) = x (ix2 (nodeOf idx k) q) :=
  GatherRows2.gather_mat_apply (N := 100000) (R := 725000) (C := 128) (by omega)
    gather_S100000x128_S725000x1_S725000x128_1_0_n_n_0_1_1128_wf x idx k q

/-- The gather of a flat array at k: the operand at the clamped start index. -/
theorem gather_flat_at (x : FVec Ideal S100000 .f32) (idx : IVec S725000x1 32) (k : Fin 725000) :
    Host.gather gather_S100000_S725000x1_S725000_n_0_n_n_0_1_1 x idx (ix1 k) = x (ix1 (nodeOf idx k)) :=
  GatherRows.gather_rows_apply (N := 100000) (R := 725000) (by omega) gather_S100000_S725000x1_S725000_n_0_n_n_0_1_1_wf x idx k

/-- The dense product at (p, q). -/
theorem dot_at (X : FVec Ideal S100000x128 .f32) (Wt : FVec Ideal S128x128 .f32) (p : Fin 100000) (q : Fin 128) :
    Host.dotGeneral dot_S100000x128_S128x128_S100000x128_1_0_0_1_n_n none X Wt (ix2 p q)
      = ∑ c : Fin 128, X (ix2 p c) * Wt (ix2 c q) :=
  hostDotGeneral_plain_apply (m := 100000) (k := 128) (n := 128) none X Wt p q

/-- THE REFERENCE'S LAYER AT (p, q). -/
theorem hostLayer_apply (dv : FVec Ideal S100000 .f32) (srcV dstV : IVec S725000 32) (X : FVec Ideal S100000x128 .f32)
    (Wt : FVec Ideal S128x128 .f32) (bv : FVec Ideal S128 .f32) (p : Fin 100000) (q : Fin 128) :
    hostLayer dv srcV dstV X Wt bv (ix2 p q)
      = Cert.Gcn.edgeWeighted (fun p => dv (ix1 p)) (nodeOf (normCol srcV)) (nodeOf (normCol dstV))
          (fun k => (rawCol dstV (ix2 k (0 : Fin 1))).toInt) (Ideal.ofBits .f32 0x00000000#32)
          (fun p c => X (ix2 p c)) (fun c q => Wt (ix2 c q)) (fun q => bv (ix1 q)) p q := by
  unfold hostLayer Cert.Gcn.edgeWeighted
  rw [maximumf_apply, addf_apply, scatter_rows_at, bcast_scalar_apply,
    bcast_row_rows_apply (by decide), bcast_vec_row_apply (by decide)]
  refine congrArg₂ max (congrArg₂ (· + ·) (congrArg₂ (· + ·) Ideal.ofBits_zero_f32 (Finset.sum_congr rfl fun k _ => ?_)) rfl) rfl
  rw [mulf_apply, gather_mat_at, dot_at, bcast_col_rows_apply (by decide), bcast_col_apply (by decide), mulf_apply,
    gather_flat_at, gather_flat_at]

end Cert.ReferenceIdeal.RefValue

end
-- ==== Proof.GcnIndexFacts.lean ====
/-
  Two facts about single words and numbers that the layers' equality rests on.

  (1) dinv is a nonnegative REAL at every node, whatever the degree is as an extended real: where the degree d is
      positive it is 1/sqrt(d) (zero at d = +inf), elsewhere it is the constant zero.
  (2) A destination word that, read as a signed integer, is a node number p in [0, 100000) is left alone by the
      "negative index counts from the end" adjustment, and clamping it into [0, 99999] gives p again.
-/
import Idealize.ShloMosaic.PureOps.Ideal
import Idealize.ShloMosaic.PureOps.Ideal.Laws

noncomputable section

namespace Cert.Gcn

open Idealize.ShloMosaic

/-- Where the degree is positive, its reciprocal square root; elsewhere zero: a nonnegative real in every case. -/
theorem dinv_nonneg_real (d z z' : EReal) (hz : z = 0) (hz' : z' = 0) :
    ∃ r : ℝ, 0 ≤ r ∧ Scalar.select (Ideal.cmp .ogt d z) (Ideal.rsqrt d) z' = (r : EReal) := by
  subst hz hz'
  unfold Scalar.select Ideal.cmp
  by_cases h : (0 : EReal) < d
  · have hc : BitVec.ofBool (decide ((0 : EReal) < d)) = 1 := by simp [h]
    rw [if_pos hc]
    induction d using EReal.rec with
    | bot => exact absurd h (by simp)
    | top => exact ⟨0, le_refl _, by simp⟩
    | coe x =>
      have hx : 0 < x := by exact_mod_cast h
      refine ⟨(Real.sqrt x)⁻¹, inv_nonneg.mpr (Real.sqrt_nonneg x), ?_⟩
      rw [Ideal.rsqrt_coe, if_neg (not_lt.mpr hx.le), if_neg hx.ne']
  · have hc : ¬ BitVec.ofBool (decide ((0 : EReal) < d)) = 1 := by simp [h]
    rw [if_neg hc]
    exact ⟨0, le_refl _, by simp⟩

/-- The same at an entry of arrays: where the degree array is positive its reciprocal square root, elsewhere the
    entry of an array that is zero there. -/
theorem dinv_entry {s : Shape} (dg z z' : FVec Ideal s .f32) (i : s.Idx) (hz : z i = 0) (hz' : z' i = 0) :
    ∃ r : ℝ, 0 ≤ r ∧ select (cmpf (F := Ideal) .ogt dg z) (Host.rsqrt dg) z' i = (r : EReal) :=
  dinv_nonneg_real (dg i) (z i) (z' i) hz hz'

/-- A word naming a node p is unchanged by the negative-index adjustment and by the clamp. -/
theorem node_word (w : BitVec 32) (p : ℕ) (hp : p < 100000) (hw : w.toInt = (p : Int)) :
    min (Scalar.select (IntOp.cmpi .slt w 0#32) (IntOp.addi w 100000#32) w).toInt.toNat (100000 - 1) = p := by
  have hs : IntOp.cmpi .slt w 0#32 ≠ 1 := by
    unfold IntOp.cmpi
    have : w.slt 0#32 = false := by
      rw [BitVec.slt_eq_decide]
      simp [hw]
    simp [this]
  unfold Scalar.select
  rw [if_neg hs, hw]
  simp only [Int.toNat_natCast]
  omega

end Cert.Gcn

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Bridge.lean ====
/-
  The bridge: one layer of the kernel program and one layer of the reference are the same function of the node
  features, so the four layers are.

  Entry by entry the kernel's layer is the node-scaled sum and the reference's the edge-weighted sum of GcnAlgebra over
  the same edges, the same clamped source nodes, the same dinv (the kernel reads it as a column, the reference as a
  flat vector) and the same bias (a row there, a vector here).  The two hypotheses of that algebra hold for every edge
  list: dinv is a nonnegative real at every node, and an edge summed at node p has p as its clamped destination.
-/
import proofs.«133015_j5600637354462_1_alg».proof.Proof.KernelLayerApply
import proofs.«133015_j5600637354462_1_alg».proof.Proof.HostLayerApply
import proofs.«133015_j5600637354462_1_alg».proof.Proof.GcnIndexFacts
import proofs.«133015_j5600637354462_1_alg».proof.Proof.LibColumnCast
import Idealize.ShloMosaic.Lib.ValueLayout

set_option maxRecDepth 16384

noncomputable section

namespace Cert.Proof.Bridge

open Idealize.ShloMosaic Idealize.ShloMosaic.ValueIdx

/-- dinv is a nonnegative real at every node. -/
theorem dinv_real (dstV : IVec (⟨1, ![725000]⟩ : Shape) 32) (p : Fin 100000) :
    ∃ r : ℝ, 0 ≤ r ∧ Cert.ReferenceIdeal.RefValue.dinv (F := Ideal) dstV (ix1 p) = (r : EReal) := by
  unfold Cert.ReferenceIdeal.RefValue.dinv
  exact Cert.Gcn.dinv_entry _ _ _ (ix1 p)
    ((Cert.ReferenceIdeal.RefValue.bcast_scalar_apply _ _ _).trans Ideal.ofBits_zero_f32)
    ((Cert.ReferenceIdeal.RefValue.bcast_scalar_apply _ _ _).trans Ideal.ofBits_zero_f32)

/-- An edge whose destination word, read signed, is the node p has p as its clamped (adjusted) destination node. -/
theorem dst_node (dstV : IVec (⟨1, ![725000]⟩ : Shape) 32) (k : Fin 725000) (p : Fin 100000)
    (h : (Cert.ReferenceIdeal.RefValue.rawCol dstV (ix2 k (0 : Fin 1))).toInt = (p.val : Int)) : Cert.ReferenceIdeal.RefValue.nodeOf (Cert.ReferenceIdeal.RefValue.normCol dstV) k = p := by
  have e1 : Cert.ReferenceIdeal.RefValue.rawCol dstV (ix2 k (0 : Fin 1)) = dstV (ix1 k) := Cert.ReferenceIdeal.RefValue.bcast_col_apply (by decide) _ _ k 0
  have e2 : Cert.ReferenceIdeal.RefValue.normCol dstV (ix2 k (0 : Fin 1))
      = Scalar.select (IntOp.cmpi .slt (dstV (ix1 k)) 0#32) (IntOp.addi (dstV (ix1 k)) 100000#32) (dstV (ix1 k)) :=
    (Cert.ReferenceIdeal.RefValue.bcast_col_apply (by decide) _ _ k 0).trans rfl
  rw [e1] at h
  apply Fin.ext
  show min (Cert.ReferenceIdeal.RefValue.normCol dstV (ix2 k (0 : Fin 1))).toInt.toNat (100000 - 1) = p.val
  rw [e2]
  exact Cert.Gcn.node_word _ p.val p.isLt h

/-- ONE LAYER: the kernel program's and the reference's are the same function of the node features. -/
theorem layer_eq (srcV dstV : IVec (⟨1, ![725000]⟩ : Shape) 32) (X : FVec Ideal (⟨2, ![100000, 128]⟩ : Shape) .f32)
    (Wt : FVec Ideal (⟨2, ![128, 128]⟩ : Shape) .f32) (bv : FVec Ideal (⟨1, ![128]⟩ : Shape) .f32) :
    Cert.KernelIdeal.KValue.kerLayer (Cert.KernelIdeal.KValue.dinvCol (F := Ideal) dstV) srcV dstV X Wt (Cert.KernelIdeal.KValue.rowOf (F := Ideal) bv)
      = Cert.ReferenceIdeal.RefValue.hostLayer (F := Ideal) (Cert.ReferenceIdeal.RefValue.dinv (F := Ideal) dstV) srcV dstV X Wt bv := by
  funext i
  obtain ⟨p, q, rfl⟩ : ∃ (p : Fin 100000) (q : Fin 128), i = ix2 p q := ⟨i 0, i 1, eq_ix2 i⟩
  refine (Cert.KernelIdeal.KValue.kerLayer_apply _ srcV dstV X Wt _ p q).trans (Eq.trans ?_ (Cert.ReferenceIdeal.RefValue.hostLayer_apply _ srcV dstV X Wt bv p q).symm)
  have hdv : (fun p : Fin 100000 => Cert.KernelIdeal.KValue.dinvCol (F := Ideal) dstV (ix2 p (0 : Fin 1)))
      = fun p => Cert.ReferenceIdeal.RefValue.dinv (F := Ideal) dstV (ix1 p) :=
    funext fun p => Cert.LibColumnCast.shapeCast_a_a1_apply _ _ p 0
  have hb : (fun q : Fin 128 => Cert.KernelIdeal.KValue.rowOf (F := Ideal) bv (ix2 (0 : Fin 1) q)) = fun q => bv (ix1 q) :=
    funext fun q => shapeCast_a_1a_apply _ _ 0 q
  rw [hdv, hb]
  exact congrFun (congrFun (Cert.Gcn.nodeScaled_eq_edgeWeighted _ _ _ _ _ (dinv_real dstV) (dst_node dstV) _ _ _) p) q

/-- THE FOUR LAYERS: the kernel program's network and the reference's are the same function of the arguments. -/
theorem net_eq (x0 : FVec Ideal (⟨2, ![100000, 128]⟩ : Shape) .f32) (x1 : FVec Ideal (⟨3, ![4, 128, 128]⟩ : Shape) .f32)
    (x2 : FVec Ideal (⟨2, ![4, 128]⟩ : Shape) .f32) (x3 : IVec (⟨2, ![2, 625000]⟩ : Shape) 32) :
    (Cert.KernelIdeal.KValue.kerLayer (Cert.KernelIdeal.KValue.dinvCol (F := Ideal) (Cert.KernelIdeal.KValue.dstList x3)) (Cert.KernelIdeal.KValue.srcList x3) (Cert.KernelIdeal.KValue.dstList x3) (Cert.KernelIdeal.KValue.kerLayer (Cert.KernelIdeal.KValue.dinvCol (F := Ideal) (Cert.KernelIdeal.KValue.dstList x3)) (Cert.KernelIdeal.KValue.srcList x3) (Cert.KernelIdeal.KValue.dstList x3) (Cert.KernelIdeal.KValue.kerLayer (Cert.KernelIdeal.KValue.dinvCol (F := Ideal) (Cert.KernelIdeal.KValue.dstList x3)) (Cert.KernelIdeal.KValue.srcList x3) (Cert.KernelIdeal.KValue.dstList x3) (Cert.KernelIdeal.KValue.kerLayer (Cert.KernelIdeal.KValue.dinvCol (F := Ideal) (Cert.KernelIdeal.KValue.dstList x3)) (Cert.KernelIdeal.KValue.srcList x3) (Cert.KernelIdeal.KValue.dstList x3) x0 (Cert.KernelIdeal.KValue.weight0 (F := Ideal) x1) (Cert.KernelIdeal.KValue.biasRow0 (F := Ideal) x2)) (Cert.KernelIdeal.KValue.weight1 (F := Ideal) x1) (Cert.KernelIdeal.KValue.biasRow1 (F := Ideal) x2)) (Cert.KernelIdeal.KValue.weight2 (F := Ideal) x1) (Cert.KernelIdeal.KValue.biasRow2 (F := Ideal) x2)) (Cert.KernelIdeal.KValue.weight3 (F := Ideal) x1) (Cert.KernelIdeal.KValue.biasRow3 (F := Ideal) x2))
      = Cert.ReferenceIdeal.RefValue.hostNet (F := Ideal) x0 x1 x2 x3 := by
  unfold Cert.KernelIdeal.KValue.biasRow0 Cert.KernelIdeal.KValue.biasRow1 Cert.KernelIdeal.KValue.biasRow2 Cert.KernelIdeal.KValue.biasRow3
  rw [layer_eq, layer_eq, layer_eq, layer_eq]
  rfl

end Cert.Proof.Bridge

end
-- ==== Proof.lean ====
/-
  A four-layer graph convolution, kernel program against reference.

  Both programs compute  x ← relu(Â (x W_i) + b_i)  four times over, Â = D^{-1/2} (A + I) D^{-1/2}  the symmetrically
  normalised adjacency of the edge list with a self-loop added at every node.  The reference weights each edge's
  message by dinv(src) · dinv(dst) and sums the weighted messages at the destination; the kernel program scales the
  transformed features of every node by dinv once (in a kernel region, together with the dense product), gathers and
  sums them unweighted (on the host), and scales the sum by dinv at the destination in the next region, where the bias
  and the relu of the finished layer are fused with the next layer's product.  Because every message summed at a
  node shares the destination factor, and dinv is a nonnegative real whatever the edge list holds, the factor comes out
  of the sum on the extended reals (GcnAlgebra); nothing else distinguishes the two.

  The kernel program's result is read off its run region by region (KernelRun, KernelBlocks0–4, KernelHost,
  KernelChain), the reference's off its run (RefRunPatched, RefValue); Bridge joins the two layer by layer.  No
  finiteness of the inputs is used.
-/
import proofs.«133015_j5600637354462_1_alg».proof.Defs
import proofs.«133015_j5600637354462_1_alg».proof.Proof.Gen.Kernel
import proofs.«133015_j5600637354462_1_alg».proof.Proof.Gen.Kernel.Frame
import proofs.«133015_j5600637354462_1_alg».proof.Proof.Gen.KernelIdeal
import proofs.«133015_j5600637354462_1_alg».proof.Proof.Gen.KernelIdeal.Frame
import proofs.«133015_j5600637354462_1_alg».proof.Proof.Gen.ReferenceIdeal
import proofs.«133015_j5600637354462_1_alg».proof.Proof.Gen.Pre_finite_inputs
import proofs.«133015_j5600637354462_1_alg».proof.Proof.KernelRun
import proofs.«133015_j5600637354462_1_alg».proof.Proof.KernelChain
import proofs.«133015_j5600637354462_1_alg».proof.Proof.RefRunPatched
import proofs.«133015_j5600637354462_1_alg».proof.Proof.RefValue
import proofs.«133015_j5600637354462_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The pass that printed the idealized kernel rewrote nothing. -/
theorem preserves : Cert.preserves_Kernel_KernelIdeal := trivial

/-- Both runs end with the four layers applied to the node features: the kernel program's network (KernelChain) and
    the reference's (RefValue) are one function of arguments that agree (Bridge). -/
theorem algebraic : Cert.algebraic_KernelIdeal_ReferenceIdeal := by
  intro m ρ m' ρ' _ hagree
  refine ⟨fun c => (Cert.KernelIdeal.KValue.kerLayer (Cert.KernelIdeal.KValue.dinvCol (F := Ideal) (Cert.KernelIdeal.KValue.dstList (m ((c.tc : Thread Cert.KernelIdeal.nD Cert.KernelIdeal.τ).loc Cert.KernelIdeal.main_arg3)))) (Cert.KernelIdeal.KValue.srcList (m ((c.tc : Thread Cert.KernelIdeal.nD Cert.KernelIdeal.τ).loc Cert.KernelIdeal.main_arg3))) (Cert.KernelIdeal.KValue.dstList (m ((c.tc : Thread Cert.KernelIdeal.nD Cert.KernelIdeal.τ).loc Cert.KernelIdeal.main_arg3))) (Cert.KernelIdeal.KValue.kerLayer (Cert.KernelIdeal.KValue.dinvCol (F := Ideal) (Cert.KernelIdeal.KValue.dstList (m ((c.tc : Thread Cert.KernelIdeal.nD Cert.KernelIdeal.τ).loc Cert.KernelIdeal.main_arg3)))) (Cert.KernelIdeal.KValue.srcList (m ((c.tc : Thread Cert.KernelIdeal.nD Cert.KernelIdeal.τ).loc Cert.KernelIdeal.main_arg3))) (Cert.KernelIdeal.KValue.dstList (m ((c.tc : Thread Cert.KernelIdeal.nD Cert.KernelIdeal.τ).loc Cert.KernelIdeal.main_arg3))) (Cert.KernelIdeal.KValue.kerLayer (Cert.KernelIdeal.KValue.dinvCol (F := Ideal) (Cert.KernelIdeal.KValue.dstList (m ((c.tc : Thread Cert.KernelIdeal.nD Cert.KernelIdeal.τ).loc Cert.KernelIdeal.main_arg3)))) (Cert.KernelIdeal.KValue.srcList (m ((c.tc : Thread Cert.KernelIdeal.nD Cert.KernelIdeal.τ).loc Cert.KernelIdeal.main_arg3))) (Cert.KernelIdeal.KValue.dstList (m ((c.tc : Thread Cert.KernelIdeal.nD Cert.KernelIdeal.τ).loc Cert.KernelIdeal.main_arg3))) (Cert.KernelIdeal.KValue.kerLayer (Cert.KernelIdeal.KValue.dinvCol (F := Ideal) (Cert.KernelIdeal.KValue.dstList (m ((c.tc : Thread Cert.KernelIdeal.nD Cert.KernelIdeal.τ).loc Cert.KernelIdeal.main_arg3)))) (Cert.KernelIdeal.KValue.srcList (m ((c.tc : Thread Cert.KernelIdeal.nD Cert.KernelIdeal.τ).loc Cert.KernelIdeal.main_arg3))) (Cert.KernelIdeal.KValue.dstList (m ((c.tc : Thread Cert.KernelIdeal.nD Cert.KernelIdeal.τ).loc Cert.KernelIdeal.main_arg3))) (m ((c.tc : Thread Cert.KernelIdeal.nD Cert.KernelIdeal.τ).loc Cert.KernelIdeal.main_arg0)) (Cert.KernelIdeal.KValue.weight0 (F := Ideal) (m ((c.tc : Thread Cert.KernelIdeal.nD Cert.KernelIdeal.τ).loc Cert.KernelIdeal.main_arg1))) (Cert.KernelIdeal.KValue.biasRow0 (F := Ideal) (m ((c.tc : Thread Cert.KernelIdeal.nD Cert.KernelIdeal.τ).loc Cert.KernelIdeal.main_arg2)))) (Cert.KernelIdeal.KValue.weight1 (F := Ideal) (m ((c.tc : Thread Cert.KernelIdeal.nD Cert.KernelIdeal.τ).loc Cert.KernelIdeal.main_arg1))) (Cert.KernelIdeal.KValue.biasRow1 (F := Ideal) (m ((c.tc : Thread Cert.KernelIdeal.nD Cert.KernelIdeal.τ).loc Cert.KernelIdeal.main_arg2)))) (Cert.KernelIdeal.KValue.weight2 (F := Ideal) (m ((c.tc : Thread Cert.KernelIdeal.nD Cert.KernelIdeal.τ).loc Cert.KernelIdeal.main_arg1))) (Cert.KernelIdeal.KValue.biasRow2 (F := Ideal) (m ((c.tc : Thread Cert.KernelIdeal.nD Cert.KernelIdeal.τ).loc Cert.KernelIdeal.main_arg2)))) (Cert.KernelIdeal.KValue.weight3 (F := Ideal) (m ((c.tc : Thread Cert.KernelIdeal.nD Cert.KernelIdeal.τ).loc Cert.KernelIdeal.main_arg1))) (Cert.KernelIdeal.KValue.biasRow3 (F := Ideal) (m ((c.tc : Thread Cert.KernelIdeal.nD Cert.KernelIdeal.τ).loc Cert.KernelIdeal.main_arg2)))), ?_, ?_⟩
  · exact (θ_run Cert.KernelIdeal.defs _ _).mono
      (fun r h c => ⟨(h c).1.trans (Cert.KernelIdeal.KValue.result_eq m ρ c), (h c).2⟩)
      (Cert.KernelIdeal.KValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2]
    exact (Cert.Proof.Bridge.net_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
